-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8x1x1 : Shape := ⟨3, ![8, 1, 1]⟩
abbrev S512x256 : Shape := ⟨2, ![512, 256]⟩
abbrev S1x1x1 : Shape := ⟨3, ![1, 1, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S1x1 : Shape := ⟨2, ![1, 1]⟩
abbrev S_ : Shape := ⟨0, ![]⟩

abbrev nBuf : Space → Nat
  | .hbm => 7
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S1x1x1 : S1x1.ShapeCasts S1x1x1
  reducesTo_S8x1x1_S_d0_1_2 : S8x1x1.ReducesTo [0, 1, 2] S_
  h_S_ : 0 < S_.numel
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .f32 = 32 ∨ (Rect.block (s := S4096x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S8x1x1.size a
  hwx0_4 : ∀ i : grid0.Coords, EltTy.bits .f32 = 32 ∨ (Rect.block (s := S8x1x1) S1x1x1.size (cc0_transform_4 i) (hinb0_4 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩
abbrev S4096x4096 : Shape := ⟨2, ![4096, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S256x8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  slices_S8192x8192_S4096x4096_0_0 : S8192x8192.Slices ![0, 0] S4096x4096
  slices_S8192x8192_S4096x4096_4096_4096 : S8192x8192.Slices ![4096, 4096] S4096x4096
  slices_S8192x8192_S4096x4096_0_4096 : S8192x8192.Slices ![0, 4096] S4096x4096
  slices_S8192x8192_S4096x4096_4096_0 : S8192x8192.Slices ![4096, 0] S4096x4096
  reducesTo_S4096x4096_S_d0_1 : S4096x4096.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BodyBits.lean ====
/-
  The kernel body at a symbolic grid point. The grid is 8 row blocks by 8 column blocks; at point (i, j) the body
  zeroes a one-cell accumulator when j = 0, loads the row blocks s_i, t_i and the column blocks s_j, t_j (512 rows of
  256 features each), forms the three 512 x 512 tables of squared distances, sums the five Gaussian kernels of each
  with signs (+, +, -2), adds the tile's total into the accumulator, and copies the accumulator to the output cell.
  Two runs: a first step (j = 0), where the accumulator may hold anything before, and a later step, where it holds a
  known value. Each names what the accumulator and the output cell hold afterwards as a function of the four blocks
  (and, for a later step, of the accumulator before).
-/
import proofs.«157802_j26560077758605_1_alg».proof.Proof.Gen.Kernel
import proofs.«157802_j26560077758605_1_alg».proof.Proof.Gen.Kernel.Skeleton
import proofs.«157802_j26560077758605_1_alg».proof.Proof.Gen.Kernel.Launch
import Idealize.ShloMosaic.Lib.Writes
import Idealize.ShloMosaic.Lib.Pipeline.FrameBody
import Idealize.ShloMosaic.Lib.Tactic

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline library's copy beside the counters. -/
abbrev UC : Type := UR sig nD τ × Counters
local notation "𝕄" => MT nD τ sig Unit (Elt F) ℕ UC ℕ

/-- The accumulator cell (the kernel's one scratch buffer, whole). -/
abbrev accM : Memref sig .tc .vmem S1x1x1 .f32 := Memref.whole cc0_scratch0
/-- The one-cell rectangle and the whole 512 x 256 block, at zero offsets. -/
abbrev r1 : Rect S1x1x1 := Rect.unit (s := S1x1x1) ![0, 0, 0] S1x1x1.size inb_S1x1x1_S1x1x1_0_0_0
abbrev r2 : Rect S512x256 := Rect.unit (s := S512x256) ![0, 0] S512x256.size inb_S512x256_S512x256_0_0

/-- "j = 0" as the body computes it. -/
abbrev IsFirst (t : Fin cfg0.N) : Prop := Scalar.cmpi .ne (Scalar.extui (Scalar.cmpi .eq (BitVec.ofNat 32 ((grid0.coords t) 1).val) 0#32)) 0#32 = 1#1

/-- What a step stores into the accumulator: the tile's signed kernel total added to the value `v` read from it,
    as the body's payloads compose over the four loaded blocks (s_i, s_j, t_i, t_j). -/
def tilePay (x0 x1 x2 x3 : Vec F S512x256 .f32) (v : Vec F S1x1x1 .f32) : FVec F S1x1x1 .f32 :=
  k0_pay1 (k0_pay9 (View.ld x0 r2) (View.ld x1 r2))
    (k0_pay12 (k0_pay7 (View.ld x2 r2) (View.ld x3 r2)) (k0_pay10 (View.ld x2 r2) (View.ld x3 r2)) k0_pay11)
    (k0_pay13 (k0_pay3 (View.ld x0 r2)) (k0_pay4 (View.ld x3 r2)) (k0_pay8 (View.ld x0 r2) (View.ld x3 r2)))
    (k0_pay16 (k0_pay9 (View.ld x0 r2) (View.ld x1 r2))
      (k0_pay12 (k0_pay7 (View.ld x2 r2) (View.ld x3 r2)) (k0_pay10 (View.ld x2 r2) (View.ld x3 r2)) k0_pay11)
      (k0_pay13 (k0_pay3 (View.ld x0 r2)) (k0_pay4 (View.ld x3 r2)) (k0_pay8 (View.ld x0 r2) (View.ld x3 r2)))
      (k0_pay14 (k0_pay3 (View.ld x0 r2)) (k0_pay4 (View.ld x3 r2)) (k0_pay7 (View.ld x2 r2) (View.ld x3 r2)) (k0_pay8 (View.ld x0 r2) (View.ld x3 r2))
        (k0_pay9 (View.ld x0 r2) (View.ld x1 r2)) (k0_pay10 (View.ld x2 r2) (View.ld x3 r2)) k0_pay11)
      (k0_pay15 (k0_pay3 (View.ld x0 r2)) (k0_pay4 (View.ld x3 r2)) (k0_pay8 (View.ld x0 r2) (View.ld x3 r2))))
    (Scalar.ofBits .f32 0x00000000#32) v

/-- The accumulator after a first step: zeroed, then the tile's total added to the zero read back; -/
abbrev firstv (x0 x1 x2 x3 : Vec F S512x256 .f32) : Vec F S1x1x1 .f32 :=
  View.canon [⟨r1, tilePay x0 x1 x2 x3 (accM.view.readCov [⟨r1, k0_pay2⟩] r1.toLoadRect)⟩, ⟨r1, k0_pay2⟩]
/-- after a later step: the tile's total added to what it held. -/
abbrev stepv (a : Vec F S1x1x1 .f32) (x0 x1 x2 x3 : Vec F S512x256 .f32) : Vec F S1x1x1 .f32 :=
  View.canon [⟨r1, tilePay x0 x1 x2 x3 (View.ld a r1)⟩]
/-- The output cell after a first step and after a later one: the accumulator read back through the step's store. -/
abbrev outFirst (x0 x1 x2 x3 : Vec F S512x256 .f32) : Vec F S1x1x1 .f32 :=
  View.canon [⟨r1, accM.view.readCov [⟨r1, tilePay x0 x1 x2 x3 (accM.view.readCov [⟨r1, k0_pay2⟩] r1.toLoadRect)⟩, ⟨r1, k0_pay2⟩] r1.toLoadRect⟩]
abbrev outStep (a : Vec F S1x1x1 .f32) (x0 x1 x2 x3 : Vec F S512x256 .f32) : Vec F S1x1x1 .f32 :=
  View.canon [⟨r1, accM.view.readCov [⟨r1, tilePay x0 x1 x2 x3 (View.ld a r1)⟩] r1.toLoadRect⟩]

omit [FloatOps F] in
theorem cover1 (p : Vec F S1x1x1 .f32) (y : S1x1x1.Idx) : ∃ pc ∈ ([⟨r1, p⟩] : List (View.Piece (Elt F) S1x1x1 .f32)), y ∈ pc.1.set :=
  View.cover_of_tiled [⟨r1, p⟩] S1x1x1.size (by rfl) y
omit [FloatOps F] in
theorem cover2 (p q : Vec F S1x1x1 .f32) (y : S1x1x1.Idx) : ∃ pc ∈ ([⟨r1, p⟩, ⟨r1, q⟩] : List (View.Piece (Elt F) S1x1x1 .f32)), y ∈ pc.1.set :=
  View.cover_of_tiled [⟨r1, p⟩, ⟨r1, q⟩] S1x1x1.size (by rfl) y

section Runs

variable (c : Dev nD) (t : Fin cfg0.N)
  (M0 : Memref sig .tc .vmem S512x256 .f32) (h0 : M0.IsWhole) (M1 : Memref sig .tc .vmem S512x256 .f32) (h1 : M1.IsWhole)
  (M2 : Memref sig .tc .vmem S512x256 .f32) (h2 : M2.IsWhole) (M3 : Memref sig .tc .vmem S512x256 .f32) (h3 : M3.IsWhole)
  (M4 : Memref sig .tc .vmem S1x1x1 .f32) (h4 : M4.IsWhole)
  (x0 x1 x2 x3 : Vec F S512x256 .f32) (a : Vec F S1x1x1 .f32)

local notation "BODY" => cc0__mmd_kernel (grid0.coords t) M0 h0 M1 h1 M2 h2 M3 h3 M4 h4 (Memref.whole cc0_scratch0) (Memref.isWhole_whole _)

/-- A later step (j > 0): the accumulator at `a` ends at `stepv`, the output cell at `outStep`; the four blocks are
    handed back as they were. -/
theorem run_step (hF : ¬ IsFirst t) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
      ∗ (∃ d, owns (c : Thread nD τ) M4 fullShare d) ∗ owns (c : Thread nD τ) accM fullShare a
      ∗ (iprop(owns (c : Thread nD τ) M0 fullShare x0 ∗ owns (c : Thread nD τ) M1 fullShare x1 ∗ owns (c : Thread nD τ) M2 fullShare x2 ∗ owns (c : Thread nD τ) M3 fullShare x3
          ∗ owns (c : Thread nD τ) M4 fullShare (outStep a x0 x1 x2 x3) ∗ owns (c : Thread nD τ) accM fullShare (stepv a x0 x1 x2 x3)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, H4⟩, ⟨%fa, %hfa, Ha⟩, Hk⟩
  subst hf0 hf1 hf2 hf3 hfa
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists _; isplitr; swap; (· iexact H4); ipureintro; exact View.read_writes_eq_canon _ _ _ (cover1 _)
  iexists _; isplitr; swap; (· iexact Ha); ipureintro; exact View.read_writes_eq_canon _ _ _ (cover1 _)

/-- A first step (j = 0): the accumulator, whatever it held, ends at `firstv`, the output cell at `outFirst`. -/
theorem run_first (hF : IsFirst t) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
      ∗ (∃ d, owns (c : Thread nD τ) M4 fullShare d) ∗ (∃ a, owns (c : Thread nD τ) accM fullShare a)
      ∗ (iprop(owns (c : Thread nD τ) M0 fullShare x0 ∗ owns (c : Thread nD τ) M1 fullShare x1 ∗ owns (c : Thread nD τ) M2 fullShare x2 ∗ owns (c : Thread nD τ) M3 fullShare x3
          ∗ owns (c : Thread nD τ) M4 fullShare (outFirst x0 x1 x2 x3) ∗ owns (c : Thread nD τ) accM fullShare (firstv x0 x1 x2 x3)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, H4⟩, ⟨%a', %fa, %hfa, Ha⟩, Hk⟩
  subst hf0 hf1 hf2 hf3
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists _; isplitr; swap; (· iexact H4); ipureintro; exact View.read_writes_eq_canon _ _ _ (cover1 _)
  iexists _; isplitr; swap; (· iexact Ha); ipureintro; exact View.read_writes_eq_canon _ _ _ (cover2 _ _)

end Runs

end Cert.Proof.Kernel

end
-- ==== Proof.DataBits.lean ====
/-
  The proof data of the pipeline: what each staging buffer and the accumulator hold at every grid point.
  The 64 points are numbered t = 8 i + j. The row blocks (windows 0 and 2) are fetched when j = 0 and kept for the
  row; the column blocks (windows 1 and 3) are fetched at every point; the body changes none of them. The accumulator
  after point t is, by recursion on t, the tile's total alone when j = 0 and the previous value plus the tile's
  total otherwise; the output cell after point t is the accumulator read back. The output window is written back
  when j = 7. The body obligation is the two runs of the body, chosen by whether j = 0.
-/
import proofs.«157802_j26560077758605_1_alg».proof.Proof.BodyBits
import proofs.«157802_j26560077758605_1_alg».proof.Proof.Gen.Kernel.Points
import Idealize.ShloMosaic.Lib.Pipeline.Frame
import Idealize.ShloMosaic.Lib.Pipeline.Kit

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

/-- A point is a row's first step iff its number is a multiple of 8. -/
theorem isFirst_iff : ∀ t : Fin cfg0.N, IsFirst t ↔ t.val % 8 = 0 :=
  (by decide +kernel : ∀ t : Fin grid0.N, (Scalar.cmpi .ne (Scalar.extui (Scalar.cmpi .eq (BitVec.ofNat 32 ((grid0.coords t) 1).val) 0#32)) 0#32 = 1#1) ↔ t.val % 8 = 0)

variable (m : (ℓ : Loc nD τ sig) → Buf (Elt F) ℓ)

/-- The arrays as the region finds them: the launch contents (no host operation precedes the region). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point `k`: the tile's total alone at a row's first step, else added to the previous value. -/
def accA (c : Dev nD) : (k : ℕ) → k < cfg0.N → Vec F S1x1x1 .f32
  | 0, hk => firstv (iblk m c 0 ⟨0, hk⟩) (iblk m c 1 ⟨0, hk⟩) (iblk m c 2 ⟨0, hk⟩) (iblk m c 3 ⟨0, hk⟩)
  | k + 1, hk =>
    if (k + 1) % 8 = 0 then firstv (iblk m c 0 ⟨k + 1, hk⟩) (iblk m c 1 ⟨k + 1, hk⟩) (iblk m c 2 ⟨k + 1, hk⟩) (iblk m c 3 ⟨k + 1, hk⟩)
    else stepv (accA c k (Nat.lt_of_succ_lt hk)) (iblk m c 0 ⟨k + 1, hk⟩) (iblk m c 1 ⟨k + 1, hk⟩) (iblk m c 2 ⟨k + 1, hk⟩) (iblk m c 3 ⟨k + 1, hk⟩)

theorem accA_first (c : Dev nD) (t : Fin cfg0.N) (h : t.val % 8 = 0) :
    accA m c t.val t.isLt = firstv (iblk m c 0 t) (iblk m c 1 t) (iblk m c 2 t) (iblk m c 3 t) := by
  obtain ⟨k, hk⟩ := t
  cases k with
  | zero => rfl
  | succ k => show (if (k + 1) % 8 = 0 then _ else _) = _; rw [if_pos h]

theorem accA_step (c : Dev nD) (t : Fin cfg0.N) (h : t.val % 8 ≠ 0) (hp : t.val - 1 < cfg0.N) :
    accA m c t.val t.isLt = stepv (accA m c (t.val - 1) hp) (iblk m c 0 t) (iblk m c 1 t) (iblk m c 2 t) (iblk m c 3 t) := by
  obtain ⟨k, hk⟩ := t
  cases k with
  | zero => exact absurd rfl h
  | succ k => show (if (k + 1) % 8 = 0 then _ else _) = _; rw [if_neg h]; rfl

/-- The accumulator before point `t`, at a step that is not a row's first. -/
abbrev accB (c : Dev nD) (t : Fin cfg0.N) (h : t.val % 8 ≠ 0) : Vec F S1x1x1 .f32 :=
  accA m c (t.val - 1) (by have := t.isLt; omega)

/-- The invariant before point `k` (k = 0 … 64): the accumulator at anything before a row's first step and at the
    end, else at what the previous point left. -/
def Φv (c : Dev nD) (k : Fin (cfg0.N + 1)) : sProp 𝕄 :=
  if h : k.val % 8 = 0 then iprop(∃ a, owns (c : Thread nD τ) accM fullShare a)
  else iprop(owns (c : Thread nD τ) accM fullShare (accA m c (k.val - 1) (by have := k.isLt; omega)))

/-- The output cell after point `t`. -/
def outAt (c : Dev nD) (t : Fin cfg0.N) : Vec F S1x1x1 .f32 :=
  if h : t.val % 8 = 0 then outFirst (iblk m c 0 t) (iblk m c 1 t) (iblk m c 2 t) (iblk m c 3 t)
  else outStep (accB m c t h) (iblk m c 0 t) (iblk m c 1 t) (iblk m c 2 t) (iblk m c 3 t)

/-- The proof data. The two windows on each argument array hold it at its two half shares. -/
def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ k := Φv m c k
  q w := match w with
    | ⟨0, _⟩ => fullShare.left
    | ⟨1, _⟩ => fullShare.right
    | ⟨2, _⟩ => fullShare.left
    | ⟨3, _⟩ => fullShare.right
    | ⟨4, _⟩ => fullShare
  owed _ := 0

abbrev 𝒱₀ : Variants := Variants.none

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- Each input window's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; dsimp only [dats]; try rfl) t d).trans
    (by unfold Dat.fetched Dat.blockOf iblk; dsimp only [dats]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; dsimp only [dats]; try rfl) t d).trans
    (by unfold Dat.fetched Dat.blockOf iblk; dsimp only [dats]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; dsimp only [dats]; try rfl) t d).trans
    (by unfold Dat.fetched Dat.blockOf iblk; dsimp only [dats]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; dsimp only [dats]; try rfl) t d).trans
    (by unfold Dat.fetched Dat.blockOf iblk; dsimp only [dats]; try rfl)

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_pre_first (c : Dev nD) (t : Fin cfg0.N) (h : t.val % 8 = 0) :
    (dats m 0 c).Φ t.castSucc = iprop(∃ a, owns (c : Thread nD τ) accM fullShare a) := by
  show Φv m c _ = _; unfold Φv; rw [dif_pos (by exact h)]
theorem Φ_pre_other (c : Dev nD) (t : Fin cfg0.N) (h : t.val % 8 ≠ 0) :
    (dats m 0 c).Φ t.castSucc = iprop(owns (c : Thread nD τ) accM fullShare (accB m c t h)) := by
  show Φv m c _ = _; unfold Φv; rw [dif_neg (by exact h)]; rfl
theorem Φ_post_last (c : Dev nD) (t : Fin cfg0.N) (h : t.val % 8 = 7) :
    (dats m 0 c).Φ t.succ = iprop(∃ a, owns (c : Thread nD τ) accM fullShare a) := by
  show Φv m c _ = _; unfold Φv; rw [dif_pos (by show (t.val + 1) % 8 = 0; omega)]
theorem Φ_post_other (c : Dev nD) (t : Fin cfg0.N) (h : t.val % 8 ≠ 7) :
    (dats m 0 c).Φ t.succ = iprop(owns (c : Thread nD τ) accM fullShare (accA m c t.val t.isLt)) := by
  show Φv m c _ = _; unfold Φv; rw [dif_neg (by show ¬ (t.val + 1) % 8 = 0; omega)]; rfl

/-- The accumulator after point `t` re-enters the invariant, whatever the point's place in its row. -/
theorem Φ_post_intro (c : Dev nD) (t : Fin cfg0.N) :
    owns (c : Thread nD τ) accM fullShare (accA m c t.val t.isLt) ⊢ ((dats m 0 c).Φ t.succ : sProp 𝕄) := by
  by_cases h : t.val % 8 = 7
  · rw [Φ_post_last m c t h]; iintro H; iexists _; iexact H
  · rw [Φ_post_other m c t h]

/-- The body obligation at every point. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [before_0, before_1, before_2, before_3, after_0, after_1, after_2, after_3, after_4]
  by_cases hF : IsFirst t
  · have h0 : t.val % 8 = 0 := (isFirst_iff t).mp hF
    rw [Φ_pre_first m c t h0, show outAt m c t = outFirst (iblk m c 0 t) (iblk m c 1 t) (iblk m c 2 t) (iblk m c 3 t) from dif_pos h0]
    iintro ⟨Ha, ⟨%Wt, %hW, HO⟩, ⟨%d0, H0⟩, ⟨%d1, H1⟩, ⟨%d2, H2⟩, ⟨%d3, H3⟩, ⟨%d4, H4⟩⟩
    iapply (run_first c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (iblk m c 0 t) (iblk m c 1 t) (iblk m c 2 t) (iblk m c 3 t) hF)
    isplitl [H0]; · iexact H0
    isplitl [H1]; · iexact H1
    isplitl [H2]; · iexact H2
    isplitl [H3]; · iexact H3
    isplitl [H4]; · iexists _; iexact H4
    isplitl [Ha]; · iexact Ha
    iintro ⟨H0, H1, H2, H3, H4, Ha⟩
    isplitl [Ha]
    · iapply (Φ_post_intro m c t); rw [accA_first m c t h0]; iexact Ha
    isplitl [HO]; · iapply (owesAt_intro m c); iexact HO
    isplitl [H0]; · iexact H0
    isplitl [H1]; · iexact H1
    isplitl [H2]; · iexact H2
    isplitl [H3]; · iexact H3
    iexact H4
  · have h1 : t.val % 8 ≠ 0 := fun h => hF ((isFirst_iff t).mpr h)
    rw [Φ_pre_other m c t h1, show outAt m c t = outStep (accB m c t h1) (iblk m c 0 t) (iblk m c 1 t) (iblk m c 2 t) (iblk m c 3 t) from dif_neg h1]
    iintro ⟨Ha, ⟨%Wt, %hW, HO⟩, ⟨%d0, H0⟩, ⟨%d1, H1⟩, ⟨%d2, H2⟩, ⟨%d3, H3⟩, ⟨%d4, H4⟩⟩
    iapply (run_step c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (iblk m c 0 t) (iblk m c 1 t) (iblk m c 2 t) (iblk m c 3 t) (accB m c t h1) hF)
    isplitl [H0]; · iexact H0
    isplitl [H1]; · iexact H1
    isplitl [H2]; · iexact H2
    isplitl [H3]; · iexact H3
    isplitl [H4]; · iexists _; iexact H4
    isplitl [Ha]; · iexact Ha
    iintro ⟨H0, H1, H2, H3, H4, Ha⟩
    isplitl [Ha]
    · iapply (Φ_post_intro m c t); rw [accA_step m c t h1]; iexact Ha
    isplitl [HO]; · iapply (owesAt_intro m c); iexact HO
    isplitl [H0]; · iexact H0
    isplitl [H1]; · iexact H1
    isplitl [H2]; · iexact H2
    isplitl [H3]; · iexact H3
    iexact H4

end Cert.Proof.Kernel

end
-- ==== Proof.LaunchBits.lean ====
/-
  The launch: from any memory with every semaphore counter at zero, every weakly fair execution of the program
  terminates without a fault; the two argument arrays end as launched, and the scalar result holds what the host lines
  after the region compute from the eight row totals the kernel wrote. Each argument array is handed to two input
  windows (a row block and a column block of the same matrix), so its full share is dealt in halves between the two
  windows on it; the output array is held outright. The host lines after the region (a zero, the sum of the eight row
  totals, the constant 2^24 and the quotient) read the output array and write four scalars of their own.
-/
import proofs.«157802_j26560077758605_1_alg».proof.Proof.DataBits
import Idealize.ShloMosaic.Lib.Pipeline.FrameSuffix

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

set_option Elab.async false

variable {F : FTy → Type} [FloatOps F]

local notation "𝕄" => MT nD τ sig Unit (Elt F) ℕ UC ℕ

variable (m : (ℓ : Loc nD τ sig) → Buf (Elt F) ℓ) (ρ : Dev nD → PrngReg)

/-- A buffer of core `c` held whole at share `q` and contents `f`. -/
abbrev pt (c : Dev nD) (b : Ref sig .tc) (q : PosShare TreeShare) (f : Buf (Elt F) ((c : Thread nD τ).loc b)) : sProp 𝕄 :=
  ((c : Thread nD τ).loc b) ↦{q} f

/-! ## The arrays and their shares -/

/-- The three buffers behind the five windows. -/
theorem arrBufs_eq (c : Dev nD) (W : (b : Ref sig .tc) → Buf (Elt F) ((c : Thread nD τ).loc b)) :
    (Pipeline.arrBufs (Ix := Unit) (Name := ℕ) (U := UC) (Lvl := ℕ) spec0 c W : sProp 𝕄)
      = iprop(pt c main_arg0 fullShare (W main_arg0) ∗ pt c main_arg1 fullShare (W main_arg1) ∗ pt c main_v0 fullShare (W main_v0)) := by
  unfold Pipeline.arrBufs
  rw [bigSep_eq_bigSepL_of_eq [main_arg0, main_arg1, main_v0] (by decide) (by decide)]
  rfl

/-- The pipeline's arrays, window by window: each argument array at its two halves, the output array outright. -/
theorem arrays_eq5 (c : Dev nD) (Fa : (w : Fin cfg0.W) → Buf (Elt F) ((cfg0.win w).arr.view.loc (c : Thread nD τ))) :
    ((dats m 0 c).arrays Fa : sProp 𝕄)
      = iprop(pt c main_arg0 fullShare.left (Fa 0) ∗ pt c main_arg0 fullShare.right (Fa 1) ∗ pt c main_arg1 fullShare.left (Fa 2)
          ∗ pt c main_arg1 fullShare.right (Fa 3) ∗ pt c main_v0 fullShare (Fa 4)) := by
  unfold Dat.arrays
  rw [bigSep_W0]
  rw [(arr_whole0 0).set_eq_univ, (arr_whole0 2).set_eq_univ, (arr_whole0 4).set_eq_univ]
  rfl

theorem hsplit (c : Dev nD) :
    (Pipeline.arrBufs (Ix := Unit) (Name := ℕ) (U := UC) (Lvl := ℕ) spec0 c (V m c) : sProp 𝕄)
      ⊢ (dats m 0 c).arrays ((dats m 0 c).arrAt · 0) := by
  rw [arrBufs_eq, arrays_eq5]
  iintro ⟨H0, H1, H2⟩
  ihave H0 := (pointsTo_share (PosShare.mem_left_op_right fullShare)).1 $$ H0
  ihave H1 := (pointsTo_share (PosShare.mem_left_op_right fullShare)).1 $$ H1
  icases H0 with ⟨H0l, H0r⟩
  icases H1 with ⟨H1l, H1r⟩
  isplitl [H0l]; · iexact H0l
  isplitl [H0r]; · iexact H0r
  isplitl [H1l]; · iexact H1l
  isplitl [H1r]; · iexact H1r
  iexact H2

/-! ## The host lines after the region -/

/-- The buffers the host lines touch: the kernel's output array and the four scalars they write. -/
def tailS : Finset (DevRef τ sig) :=
  {Proc.devRef .tc main_v0, Proc.devRef .tc main_cst, Proc.devRef .tc main_v1, Proc.devRef .tc main_cst_0, Proc.devRef .tc main_v2}

/-- The buffers at the region's exit: the output array at what the kernel wrote, the rest as launched; -/
def Wexit (c : Dev nD) : Valuation τ sig (Elt F) :=
  Function.update (fun b => m ((c : Dev nD), b)) (Proc.devRef .tc main_v0) ((dats m 0 c).arrAt 4 cfg0.N)
/-- and after the host lines. -/
def Wend (c : Dev nD) : Valuation τ sig (Elt F) :=
  StableHlo.after ([hostOps1] : List (List (HloOp τ sig (Elt F)))).flatten (Wexit m c)

theorem held_tailS (c : Dev nD) (W : Valuation τ sig (Elt F)) : (StableHlo.held (c : Thread nD τ) tailS W : sProp 𝕄)
    = iprop(pt c main_v0 fullShare (W main_v0) ∗ pt c main_cst fullShare (W main_cst) ∗ pt c main_v1 fullShare (W main_v1)
        ∗ pt c main_cst_0 fullShare (W main_cst_0) ∗ pt c main_v2 fullShare (W main_v2)) := by
  unfold StableHlo.held tailS
  rw [bigSep_eq_bigSepL_of_eq [Proc.devRef .tc main_v0, Proc.devRef .tc main_cst, Proc.devRef .tc main_v1, Proc.devRef .tc main_cst_0, Proc.devRef .tc main_v2] (by decide) (by decide)]
  rfl

theorem tail_sub : ∀ ops ∈ ([hostOps1] : List (List (HloOp τ sig (Elt F)))), ∀ op ∈ ops, op.bufs ⊆ tailS := by
  intro ops hops op hop
  simp only [List.mem_singleton] at hops; subst hops
  simp only [List.mem_cons, List.not_mem_nil, or_false] at hop
  rcases hop with rfl | rfl | rfl | rfl
  · show ({Proc.devRef .tc main_cst} : Finset (DevRef τ sig)) ⊆ tailS; decide
  · show ({Proc.devRef .tc main_v0, Proc.devRef .tc main_cst, Proc.devRef .tc main_v1} : Finset (DevRef τ sig)) ⊆ tailS; decide
  · show ({Proc.devRef .tc main_cst_0} : Finset (DevRef τ sig)) ⊆ tailS; decide
  · show ({Proc.devRef .tc main_v1, Proc.devRef .tc main_cst_0, Proc.devRef .tc main_v2} : Finset (DevRef τ sig)) ⊆ tailS; decide

theorem tail_fresh : ∀ ops ∈ ([hostOps1] : List (List (HloOp τ sig (Elt F)))), ∀ op ∈ ops, op.fresh = ∅ := by
  intro ops hops op hop
  simp only [List.mem_singleton] at hops; subst hops
  simp only [List.mem_cons, List.not_mem_nil, or_false] at hop
  rcases hop with rfl | rfl | rfl | rfl <;> rfl

/-- No host line writes the kernel's output array. -/
theorem Wend_v0 (c : Dev nD) : Wend m c main_v0 = (dats m 0 c).arrAt 4 cfg0.N := by
  unfold Wend
  rw [StableHlo.after_of_forall_not_mem _ _ fun op hop => ?_]
  · unfold Wexit; exact Function.update_self _ _ _
  · simp only [List.flatten_cons, List.flatten_nil, List.append_nil, List.mem_cons, List.not_mem_nil, or_false] at hop
    rcases hop with rfl | rfl | rfl | rfl
    · show Proc.devRef .tc main_v0 ∉ ({Proc.devRef .tc main_cst} : Finset (DevRef τ sig)); decide
    · show Proc.devRef .tc main_v0 ∉ ({Proc.devRef .tc main_v1} : Finset (DevRef τ sig)); decide
    · show Proc.devRef .tc main_v0 ∉ ({Proc.devRef .tc main_cst_0} : Finset (DevRef τ sig)); decide
    · show Proc.devRef .tc main_v0 ∉ ({Proc.devRef .tc main_v2} : Finset (DevRef τ sig)); decide

/-- The four scalars the host lines write, held at what the lines leave. -/
abbrev Zend (c : Dev nD) : sProp 𝕄 :=
  iprop(pt c main_cst fullShare (Wend m c main_cst) ∗ pt c main_v1 fullShare (Wend m c main_v1)
    ∗ pt c main_cst_0 fullShare (Wend m c main_cst_0) ∗ pt c main_v2 fullShare (Wend m c main_v2))

set_option backward.isDefEq.respectTransparency.types false in
theorem htail (c : Dev nD) (Q' : PUnit → sProp 𝕄) :
    iprop((iprop((dats m 0 c).arrays ((dats m 0 c).arrAt · cfg0.N) ∗ Zend m c) -∗ Q' ⟨⟩)
        ∗ boundary (c : Thread nD τ) ∗ (dats m 0 c).arrays ((dats m 0 c).arrAt · cfg0.N)
        ∗ Pipeline.unscopedRest (Ix := Unit) (Name := ℕ) (U := UC) (Lvl := ℕ) spec0 c (V m c))
      ⊢ wp frame (wpE (Pipeline.defs (pcfgs (F := F)) defs₀) (Variants.lift 𝒱₀) (c : Thread nD τ) none) Set.univ
          (Pipeline.chain ([hostOps1].map StableHlo.seq)) Q' := by
  rw [arrays_eq5, unscopedRest0_eq, ← List.append_nil ([hostOps1].map StableHlo.seq)]
  iintro ⟨Hk, Hb, ⟨A0, A1, A2, A3, A4⟩, ⟨Z0, Z1, Z2, Z3⟩⟩
  iapply (Pipeline.wp_seqs_then (pcfgs (F := F)) defs₀ 𝒱₀ c tailS [] [hostOps1] tail_sub tail_fresh (Wexit m c)) $$ [Hb A4 Z0 Z1 Z2 Z3]
  · isplitl [Hb]; · iexact Hb
    rw [held_tailS]
    isplitl [A4]
    · rw [show Wexit m c main_v0 = (dats m 0 c).arrAt 4 cfg0.N from Function.update_self _ _ _]; iexact A4
    isplitl [Z0]; · iexact Z0
    isplitl [Z1]; · iexact Z1
    isplitl [Z2]; · iexact Z2
    iexact Z3
  iintro Hb
  rw [Pipeline.chain_nil, wp_pure, held_tailS]
  imodintro
  iapply Hk
  icases Hb with ⟨-, B0, B1, B2, B3, B4⟩
  isplitl [A0 A1 A2 A3 B0]
  · isplitl [A0]; · iexact A0
    isplitl [A1]; · iexact A1
    isplitl [A2]; · iexact A2
    isplitl [A3]; · iexact A3
    rw [show StableHlo.after ([hostOps1] : List (List (HloOp τ sig (Elt F)))).flatten (Wexit m c) main_v0 = (dats m 0 c).arrAt 4 cfg0.N from Wend_v0 m c]
    iexact B0
  isplitl [B1]; · iexact B1
  isplitl [B2]; · iexact B2
  isplitl [B3]; · iexact B3
  iexact B4

/-! ## The run -/

/-- The run's post: the scalar result at what the host lines leave, the argument arrays as launched. -/
def RunPost (r : PUnit × MemSt nD τ sig (Elt F)) : Prop :=
  ∀ c : Dev nD, r.2.mem ((c : Thread nD τ).loc main_v2) = Wend m c main_v2
    ∧ r.2.mem ((c : Thread nD τ).loc main_arg0) = m ((c : Thread nD τ).loc main_arg0)
    ∧ r.2.mem ((c : Thread nD τ).loc main_arg1) = m ((c : Thread nD τ).loc main_arg1)

/-- @main is the region followed by the four host lines. -/
theorem hmain : Pipeline.HMainPK (Ix := Unit) (Name := ℕ) (U := UC) (Lvl := ℕ) (pcfgs (F := F)) 0 defs₀ 𝒱₀ m (main (F := F))
    (fun c b => StableHlo.after ([] : List (List (HloOp τ sig (Elt F)))).flatten (fun b => m (c, b)) b)
    (fun _ => Pipeline.chain ([hostOps1].map StableHlo.seq)) :=
  Pipeline.hmainP_around (pcfgs (F := F)) 0 defs₀ 𝒱₀ m main [] [hostOps1] trivial trivial (fun c => (main_chain c).trans rfl)

theorem hin (c : Dev nD) :
    iprop((emp : sProp 𝕄) ∗ Pipeline.prefHeld (pcfgs (F := F) 0).pre c (fun _ => fullShare.right) ((cfgs 0).toPCfg_adm (Val := Elt F)).1
      ∗ Pipeline.scopedRest (Ix := Unit) (Name := ℕ) (U := UC) (Lvl := ℕ) (Val := Elt F) spec0 c) ⊢ (dats m 0 c).Φ 0 := by
  rw [scopedRest0_eq, show (dats m 0 c).Φ 0 = Φv m c 0 from rfl]
  unfold Φv; rw [dif_pos (by decide)]
  iintro ⟨-, -, ⟨%f, Hf⟩⟩
  iexists f; rw [owns_whole_eq]; iexists f; isplitr; (· ipureintro; rfl); iexact Hf

theorem hout (c : Dev nD) :
    (dats m 0 c).Φ (Fin.last cfg0.N) ⊢ iprop((emp : sProp 𝕄) ∗ Pipeline.scopedRest (Ix := Unit) (Name := ℕ) (U := UC) (Lvl := ℕ) (Val := Elt F) spec0 c) := by
  rw [scopedRest0_eq, show (dats m 0 c).Φ (Fin.last cfg0.N) = Φv m c (Fin.last cfg0.N) from rfl]
  unfold Φv; rw [dif_pos (by decide)]; simp only [owns_whole_eq]
  iintro ⟨%a, %f, %hf, Hf⟩
  isplitr; · iempintro
  iexists f; iexact Hf

theorem hY (c : Dev nD) (s' : Phys nD τ sig (Elt F)) :
    iprop((emp : sProp 𝕄) ∗ Zend m c ∗ SI s') ⊢ |={Set.univ}=> iprop(⌜s'.mem.mem ((c : Thread nD τ).loc main_v2) = Wend m c main_v2⌝ ∗ SI s') := by
  iintro ⟨-, ⟨Z0, Z1, Z2, Z3⟩, HSI⟩
  icombine HSI Z3 gives %h
  imodintro
  isplitr; · ipureintro; exact Buf.eq_of_forall_mem_univ h
  iexact HSI

theorem run_main : θ_run (defs (F := F)) (onTc (τ := τ) (main (F := F))) ⟨m, fun _ => 0, ρ⟩ (RunPost m) :=
  Pipeline.θ_run_region_noSem_pf_tail (pcfgs (F := F)) (fun p => (cfgs p).toPCfg_adm) (dats m) () cellOf_inj 0 winFacts₀0 (Pipeline.PreFacts.none _) embL defs₀ 𝒱₀
    m ρ main (fun _ => Pipeline.chain ([hostOps1].map StableHlo.seq))
    (hbody := fun c => (body_obligation m c).loose)
    (hne := block_pos0) (harr := arr_whole0) (hstage := stage_whole0)
    (howed := fun _ _ => rfl)
    (u₀ := (initOf (Pipeline.cells cfgs cellOf_inj) (Pipeline.launchToks cfgs cellOf_inj), 1))
    (hu₀ := by
      iintro Hu
      ihave H := (ownU_pair _ _) $$ Hu
      icases H with ⟨HP, -⟩
      iexact HP)
    (V := V m)
    (hmain := hmain m)
    (hsplit := hsplit m)
    (hpf := fun _ k => k.elim0)
    (X := fun _ => iprop(emp)) (Y := fun _ => iprop(emp))
    (Z := fun c => Pipeline.unscopedRest spec0 c (V m c)) (Z' := fun c => Zend m c)
    (hX := fun c => by
      rw [Pipeline.unscopedRestP_none]
      iintro H; isplitr; · iempintro
      iexact H)
    (hin := hin m)
    (hout := hout m)
    (htail := htail m)
    (QY := fun c s => s.mem ((c : Thread nD τ).loc main_v2) = Wend m c main_v2)
    (hY := hY m)
    (hQ := fun s h c => ⟨(h c).2.2, ((h c).1 0).trans ((dats m 0 c).arrAt_in 0 rfl _), ((h c).1 2).trans ((dats m 0 c).arrAt_in 2 rfl _)⟩)

end Cert.Proof.Kernel

end
-- ==== Proof.BodyIdeal.lean ====
/-
  The kernel body at a symbolic grid point. The grid is 8 row blocks by 8 column blocks; at point (i, j) the body
  zeroes a one-cell accumulator when j = 0, loads the row blocks s_i, t_i and the column blocks s_j, t_j (512 rows of
  256 features each), forms the three 512 x 512 tables of squared distances, sums the five Gaussian kernels of each
  with signs (+, +, -2), adds the tile's total into the accumulator, and copies the accumulator to the output cell.
  Two runs: a first step (j = 0), where the accumulator may hold anything before, and a later step, where it holds a
  known value. Each names what the accumulator and the output cell hold afterwards as a function of the four blocks
  (and, for a later step, of the accumulator before).
-/
import proofs.«157802_j26560077758605_1_alg».proof.Proof.Gen.KernelIdeal
import proofs.«157802_j26560077758605_1_alg».proof.Proof.Gen.KernelIdeal.Skeleton
import proofs.«157802_j26560077758605_1_alg».proof.Proof.Gen.KernelIdeal.Launch
import Idealize.ShloMosaic.Lib.Writes
import Idealize.ShloMosaic.Lib.Pipeline.FrameBody
import Idealize.ShloMosaic.Lib.Tactic

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The user algebra: the pipeline library's copy beside the counters. -/
abbrev UC : Type := UR sig nD τ × Counters
local notation "𝕄" => MT nD τ sig Unit (Elt F) ℕ UC ℕ

/-- The accumulator cell (the kernel's one scratch buffer, whole). -/
abbrev accM : Memref sig .tc .vmem S1x1x1 .f32 := Memref.whole cc0_scratch0
/-- The one-cell rectangle and the whole 512 x 256 block, at zero offsets. -/
abbrev r1 : Rect S1x1x1 := Rect.unit (s := S1x1x1) ![0, 0, 0] S1x1x1.size inb_S1x1x1_S1x1x1_0_0_0
abbrev r2 : Rect S512x256 := Rect.unit (s := S512x256) ![0, 0] S512x256.size inb_S512x256_S512x256_0_0

/-- "j = 0" as the body computes it. -/
abbrev IsFirst (t : Fin cfg0.N) : Prop := Scalar.cmpi .ne (Scalar.extui (Scalar.cmpi .eq (BitVec.ofNat 32 ((grid0.coords t) 1).val) 0#32)) 0#32 = 1#1

/-- What a step stores into the accumulator: the tile's signed kernel total added to the value `v` read from it,
    as the body's payloads compose over the four loaded blocks (s_i, s_j, t_i, t_j). -/
def tilePay (x0 x1 x2 x3 : Vec F S512x256 .f32) (v : Vec F S1x1x1 .f32) : FVec F S1x1x1 .f32 :=
  k0_pay1 (k0_pay9 (View.ld x0 r2) (View.ld x1 r2))
    (k0_pay12 (k0_pay7 (View.ld x2 r2) (View.ld x3 r2)) (k0_pay10 (View.ld x2 r2) (View.ld x3 r2)) k0_pay11)
    (k0_pay13 (k0_pay3 (View.ld x0 r2)) (k0_pay4 (View.ld x3 r2)) (k0_pay8 (View.ld x0 r2) (View.ld x3 r2)))
    (k0_pay16 (k0_pay9 (View.ld x0 r2) (View.ld x1 r2))
      (k0_pay12 (k0_pay7 (View.ld x2 r2) (View.ld x3 r2)) (k0_pay10 (View.ld x2 r2) (View.ld x3 r2)) k0_pay11)
      (k0_pay13 (k0_pay3 (View.ld x0 r2)) (k0_pay4 (View.ld x3 r2)) (k0_pay8 (View.ld x0 r2) (View.ld x3 r2)))
      (k0_pay14 (k0_pay3 (View.ld x0 r2)) (k0_pay4 (View.ld x3 r2)) (k0_pay7 (View.ld x2 r2) (View.ld x3 r2)) (k0_pay8 (View.ld x0 r2) (View.ld x3 r2))
        (k0_pay9 (View.ld x0 r2) (View.ld x1 r2)) (k0_pay10 (View.ld x2 r2) (View.ld x3 r2)) k0_pay11)
      (k0_pay15 (k0_pay3 (View.ld x0 r2)) (k0_pay4 (View.ld x3 r2)) (k0_pay8 (View.ld x0 r2) (View.ld x3 r2))))
    (Scalar.ofBits .f32 0x00000000#32) v

/-- The accumulator after a first step: zeroed, then the tile's total added to the zero read back; -/
abbrev firstv (x0 x1 x2 x3 : Vec F S512x256 .f32) : Vec F S1x1x1 .f32 :=
  View.canon [⟨r1, tilePay x0 x1 x2 x3 (accM.view.readCov [⟨r1, k0_pay2⟩] r1.toLoadRect)⟩, ⟨r1, k0_pay2⟩]
/-- after a later step: the tile's total added to what it held. -/
abbrev stepv (a : Vec F S1x1x1 .f32) (x0 x1 x2 x3 : Vec F S512x256 .f32) : Vec F S1x1x1 .f32 :=
  View.canon [⟨r1, tilePay x0 x1 x2 x3 (View.ld a r1)⟩]
/-- The output cell after a first step and after a later one: the accumulator read back through the step's store. -/
abbrev outFirst (x0 x1 x2 x3 : Vec F S512x256 .f32) : Vec F S1x1x1 .f32 :=
  View.canon [⟨r1, accM.view.readCov [⟨r1, tilePay x0 x1 x2 x3 (accM.view.readCov [⟨r1, k0_pay2⟩] r1.toLoadRect)⟩, ⟨r1, k0_pay2⟩] r1.toLoadRect⟩]
abbrev outStep (a : Vec F S1x1x1 .f32) (x0 x1 x2 x3 : Vec F S512x256 .f32) : Vec F S1x1x1 .f32 :=
  View.canon [⟨r1, accM.view.readCov [⟨r1, tilePay x0 x1 x2 x3 (View.ld a r1)⟩] r1.toLoadRect⟩]

omit [FloatOps F] in
theorem cover1 (p : Vec F S1x1x1 .f32) (y : S1x1x1.Idx) : ∃ pc ∈ ([⟨r1, p⟩] : List (View.Piece (Elt F) S1x1x1 .f32)), y ∈ pc.1.set :=
  View.cover_of_tiled [⟨r1, p⟩] S1x1x1.size (by rfl) y
omit [FloatOps F] in
theorem cover2 (p q : Vec F S1x1x1 .f32) (y : S1x1x1.Idx) : ∃ pc ∈ ([⟨r1, p⟩, ⟨r1, q⟩] : List (View.Piece (Elt F) S1x1x1 .f32)), y ∈ pc.1.set :=
  View.cover_of_tiled [⟨r1, p⟩, ⟨r1, q⟩] S1x1x1.size (by rfl) y

section Runs

variable (c : Dev nD) (t : Fin cfg0.N)
  (M0 : Memref sig .tc .vmem S512x256 .f32) (h0 : M0.IsWhole) (M1 : Memref sig .tc .vmem S512x256 .f32) (h1 : M1.IsWhole)
  (M2 : Memref sig .tc .vmem S512x256 .f32) (h2 : M2.IsWhole) (M3 : Memref sig .tc .vmem S512x256 .f32) (h3 : M3.IsWhole)
  (M4 : Memref sig .tc .vmem S1x1x1 .f32) (h4 : M4.IsWhole)
  (x0 x1 x2 x3 : Vec F S512x256 .f32) (a : Vec F S1x1x1 .f32)

local notation "BODY" => cc0__mmd_kernel (grid0.coords t) M0 h0 M1 h1 M2 h2 M3 h3 M4 h4 (Memref.whole cc0_scratch0) (Memref.isWhole_whole _)

/-- A later step (j > 0): the accumulator at `a` ends at `stepv`, the output cell at `outStep`; the four blocks are
    handed back as they were. -/
theorem run_step (hF : ¬ IsFirst t) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
      ∗ (∃ d, owns (c : Thread nD τ) M4 fullShare d) ∗ owns (c : Thread nD τ) accM fullShare a
      ∗ (iprop(owns (c : Thread nD τ) M0 fullShare x0 ∗ owns (c : Thread nD τ) M1 fullShare x1 ∗ owns (c : Thread nD τ) M2 fullShare x2 ∗ owns (c : Thread nD τ) M3 fullShare x3
          ∗ owns (c : Thread nD τ) M4 fullShare (outStep a x0 x1 x2 x3) ∗ owns (c : Thread nD τ) accM fullShare (stepv a x0 x1 x2 x3)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, H4⟩, ⟨%fa, %hfa, Ha⟩, Hk⟩
  subst hf0 hf1 hf2 hf3 hfa
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists _; isplitr; swap; (· iexact H4); ipureintro; exact View.read_writes_eq_canon _ _ _ (cover1 _)
  iexists _; isplitr; swap; (· iexact Ha); ipureintro; exact View.read_writes_eq_canon _ _ _ (cover1 _)

/-- A first step (j = 0): the accumulator, whatever it held, ends at `firstv`, the output cell at `outFirst`. -/
theorem run_first (hF : IsFirst t) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
      ∗ (∃ d, owns (c : Thread nD τ) M4 fullShare d) ∗ (∃ a, owns (c : Thread nD τ) accM fullShare a)
      ∗ (iprop(owns (c : Thread nD τ) M0 fullShare x0 ∗ owns (c : Thread nD τ) M1 fullShare x1 ∗ owns (c : Thread nD τ) M2 fullShare x2 ∗ owns (c : Thread nD τ) M3 fullShare x3
          ∗ owns (c : Thread nD τ) M4 fullShare (outFirst x0 x1 x2 x3) ∗ owns (c : Thread nD τ) accM fullShare (firstv x0 x1 x2 x3)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, H4⟩, ⟨%a', %fa, %hfa, Ha⟩, Hk⟩
  subst hf0 hf1 hf2 hf3
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists _; isplitr; swap; (· iexact H4); ipureintro; exact View.read_writes_eq_canon _ _ _ (cover1 _)
  iexists _; isplitr; swap; (· iexact Ha); ipureintro; exact View.read_writes_eq_canon _ _ _ (cover2 _ _)

end Runs

end Cert.Proof.KernelIdeal

end
-- ==== Proof.DataIdeal.lean ====
/-
  The proof data of the pipeline: what each staging buffer and the accumulator hold at every grid point.
  The 64 points are numbered t = 8 i + j. The row blocks (windows 0 and 2) are fetched when j = 0 and kept for the
  row; the column blocks (windows 1 and 3) are fetched at every point; the body changes none of them. The accumulator
  after point t is, by recursion on t, the tile's total alone when j = 0 and the previous value plus the tile's
  total otherwise; the output cell after point t is the accumulator read back. The output window is written back
  when j = 7. The body obligation is the two runs of the body, chosen by whether j = 0.
-/
import proofs.«157802_j26560077758605_1_alg».proof.Proof.BodyIdeal
import proofs.«157802_j26560077758605_1_alg».proof.Proof.Gen.KernelIdeal.Points
import Idealize.ShloMosaic.Lib.Pipeline.Frame
import Idealize.ShloMosaic.Lib.Pipeline.Kit

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ UC ℕ

/-- A point is a row's first step iff its number is a multiple of 8. -/
theorem isFirst_iff : ∀ t : Fin cfg0.N, IsFirst t ↔ t.val % 8 = 0 :=
  (by decide +kernel : ∀ t : Fin grid0.N, (Scalar.cmpi .ne (Scalar.extui (Scalar.cmpi .eq (BitVec.ofNat 32 ((grid0.coords t) 1).val) 0#32)) 0#32 = 1#1) ↔ t.val % 8 = 0)

variable (m : (ℓ : Loc nD τ sig) → Buf (Elt F) ℓ)

/-- The arrays as the region finds them: the launch contents (no host operation precedes the region). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after point `k`: the tile's total alone at a row's first step, else added to the previous value. -/
def accA (c : Dev nD) : (k : ℕ) → k < cfg0.N → Vec F S1x1x1 .f32
  | 0, hk => firstv (iblk m c 0 ⟨0, hk⟩) (iblk m c 1 ⟨0, hk⟩) (iblk m c 2 ⟨0, hk⟩) (iblk m c 3 ⟨0, hk⟩)
  | k + 1, hk =>
    if (k + 1) % 8 = 0 then firstv (iblk m c 0 ⟨k + 1, hk⟩) (iblk m c 1 ⟨k + 1, hk⟩) (iblk m c 2 ⟨k + 1, hk⟩) (iblk m c 3 ⟨k + 1, hk⟩)
    else stepv (accA c k (Nat.lt_of_succ_lt hk)) (iblk m c 0 ⟨k + 1, hk⟩) (iblk m c 1 ⟨k + 1, hk⟩) (iblk m c 2 ⟨k + 1, hk⟩) (iblk m c 3 ⟨k + 1, hk⟩)

theorem accA_first (c : Dev nD) (t : Fin cfg0.N) (h : t.val % 8 = 0) :
    accA m c t.val t.isLt = firstv (iblk m c 0 t) (iblk m c 1 t) (iblk m c 2 t) (iblk m c 3 t) := by
  obtain ⟨k, hk⟩ := t
  cases k with
  | zero => rfl
  | succ k => show (if (k + 1) % 8 = 0 then _ else _) = _; rw [if_pos h]

theorem accA_step (c : Dev nD) (t : Fin cfg0.N) (h : t.val % 8 ≠ 0) (hp : t.val - 1 < cfg0.N) :
    accA m c t.val t.isLt = stepv (accA m c (t.val - 1) hp) (iblk m c 0 t) (iblk m c 1 t) (iblk m c 2 t) (iblk m c 3 t) := by
  obtain ⟨k, hk⟩ := t
  cases k with
  | zero => exact absurd rfl h
  | succ k => show (if (k + 1) % 8 = 0 then _ else _) = _; rw [if_neg h]; rfl

/-- The accumulator before point `t`, at a step that is not a row's first. -/
abbrev accB (c : Dev nD) (t : Fin cfg0.N) (h : t.val % 8 ≠ 0) : Vec F S1x1x1 .f32 :=
  accA m c (t.val - 1) (by have := t.isLt; omega)

/-- The invariant before point `k` (k = 0 … 64): the accumulator at anything before a row's first step and at the
    end, else at what the previous point left. -/
def Φv (c : Dev nD) (k : Fin (cfg0.N + 1)) : sProp 𝕄 :=
  if h : k.val % 8 = 0 then iprop(∃ a, owns (c : Thread nD τ) accM fullShare a)
  else iprop(owns (c : Thread nD τ) accM fullShare (accA m c (k.val - 1) (by have := k.isLt; omega)))

/-- The output cell after point `t`. -/
def outAt (c : Dev nD) (t : Fin cfg0.N) : Vec F S1x1x1 .f32 :=
  if h : t.val % 8 = 0 then outFirst (iblk m c 0 t) (iblk m c 1 t) (iblk m c 2 t) (iblk m c 3 t)
  else outStep (accB m c t h) (iblk m c 0 t) (iblk m c 1 t) (iblk m c 2 t) (iblk m c 3 t)

/-- The proof data. The two windows on each argument array hold it at its two half shares. -/
def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ k := Φv m c k
  q w := match w with
    | ⟨0, _⟩ => fullShare.left
    | ⟨1, _⟩ => fullShare.right
    | ⟨2, _⟩ => fullShare.left
    | ⟨3, _⟩ => fullShare.right
    | ⟨4, _⟩ => fullShare
  owed _ := 0

abbrev 𝒱₀ : Variants := Variants.none

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- Each input window's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; dsimp only [dats]; try rfl) t d).trans
    (by unfold Dat.fetched Dat.blockOf iblk; dsimp only [dats]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; dsimp only [dats]; try rfl) t d).trans
    (by unfold Dat.fetched Dat.blockOf iblk; dsimp only [dats]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; dsimp only [dats]; try rfl) t d).trans
    (by unfold Dat.fetched Dat.blockOf iblk; dsimp only [dats]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; dsimp only [dats]; try rfl) t d).trans
    (by unfold Dat.fetched Dat.blockOf iblk; dsimp only [dats]; try rfl)

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem Φ_pre_first (c : Dev nD) (t : Fin cfg0.N) (h : t.val % 8 = 0) :
    (dats m 0 c).Φ t.castSucc = iprop(∃ a, owns (c : Thread nD τ) accM fullShare a) := by
  show Φv m c _ = _; unfold Φv; rw [dif_pos (by exact h)]
theorem Φ_pre_other (c : Dev nD) (t : Fin cfg0.N) (h : t.val % 8 ≠ 0) :
    (dats m 0 c).Φ t.castSucc = iprop(owns (c : Thread nD τ) accM fullShare (accB m c t h)) := by
  show Φv m c _ = _; unfold Φv; rw [dif_neg (by exact h)]; rfl
theorem Φ_post_last (c : Dev nD) (t : Fin cfg0.N) (h : t.val % 8 = 7) :
    (dats m 0 c).Φ t.succ = iprop(∃ a, owns (c : Thread nD τ) accM fullShare a) := by
  show Φv m c _ = _; unfold Φv; rw [dif_pos (by show (t.val + 1) % 8 = 0; omega)]
theorem Φ_post_other (c : Dev nD) (t : Fin cfg0.N) (h : t.val % 8 ≠ 7) :
    (dats m 0 c).Φ t.succ = iprop(owns (c : Thread nD τ) accM fullShare (accA m c t.val t.isLt)) := by
  show Φv m c _ = _; unfold Φv; rw [dif_neg (by show ¬ (t.val + 1) % 8 = 0; omega)]; rfl

/-- The accumulator after point `t` re-enters the invariant, whatever the point's place in its row. -/
theorem Φ_post_intro (c : Dev nD) (t : Fin cfg0.N) :
    owns (c : Thread nD τ) accM fullShare (accA m c t.val t.isLt) ⊢ ((dats m 0 c).Φ t.succ : sProp 𝕄) := by
  by_cases h : t.val % 8 = 7
  · rw [Φ_post_last m c t h]; iintro H; iexists _; iexact H
  · rw [Φ_post_other m c t h]

/-- The body obligation at every point. -/
theorem body_obligation (c : Dev nD) : BodyObligation (dats (F := F) m 0 c) (defs₀ (F := F)) 𝒱₀ () Set.univ := fun t => by
  rw [bigSep_W0, bigSep_W0]
  unfold Dat.owesAt Pipeline.owesWithin
  rw [show (dats m 0 c).owed t.castSucc = 0 from rfl]
  simp only [before_0, before_1, before_2, before_3, after_0, after_1, after_2, after_3, after_4]
  by_cases hF : IsFirst t
  · have h0 : t.val % 8 = 0 := (isFirst_iff t).mp hF
    rw [Φ_pre_first m c t h0, show outAt m c t = outFirst (iblk m c 0 t) (iblk m c 1 t) (iblk m c 2 t) (iblk m c 3 t) from dif_pos h0]
    iintro ⟨Ha, ⟨%Wt, %hW, HO⟩, ⟨%d0, H0⟩, ⟨%d1, H1⟩, ⟨%d2, H2⟩, ⟨%d3, H3⟩, ⟨%d4, H4⟩⟩
    iapply (run_first c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (iblk m c 0 t) (iblk m c 1 t) (iblk m c 2 t) (iblk m c 3 t) hF)
    isplitl [H0]; · iexact H0
    isplitl [H1]; · iexact H1
    isplitl [H2]; · iexact H2
    isplitl [H3]; · iexact H3
    isplitl [H4]; · iexists _; iexact H4
    isplitl [Ha]; · iexact Ha
    iintro ⟨H0, H1, H2, H3, H4, Ha⟩
    isplitl [Ha]
    · iapply (Φ_post_intro m c t); rw [accA_first m c t h0]; iexact Ha
    isplitl [HO]; · iapply (owesAt_intro m c); iexact HO
    isplitl [H0]; · iexact H0
    isplitl [H1]; · iexact H1
    isplitl [H2]; · iexact H2
    isplitl [H3]; · iexact H3
    iexact H4
  · have h1 : t.val % 8 ≠ 0 := fun h => hF ((isFirst_iff t).mpr h)
    rw [Φ_pre_other m c t h1, show outAt m c t = outStep (accB m c t h1) (iblk m c 0 t) (iblk m c 1 t) (iblk m c 2 t) (iblk m c 3 t) from dif_neg h1]
    iintro ⟨Ha, ⟨%Wt, %hW, HO⟩, ⟨%d0, H0⟩, ⟨%d1, H1⟩, ⟨%d2, H2⟩, ⟨%d3, H3⟩, ⟨%d4, H4⟩⟩
    iapply (run_step c t (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (iblk m c 0 t) (iblk m c 1 t) (iblk m c 2 t) (iblk m c 3 t) (accB m c t h1) hF)
    isplitl [H0]; · iexact H0
    isplitl [H1]; · iexact H1
    isplitl [H2]; · iexact H2
    isplitl [H3]; · iexact H3
    isplitl [H4]; · iexists _; iexact H4
    isplitl [Ha]; · iexact Ha
    iintro ⟨H0, H1, H2, H3, H4, Ha⟩
    isplitl [Ha]
    · iapply (Φ_post_intro m c t); rw [accA_step m c t h1]; iexact Ha
    isplitl [HO]; · iapply (owesAt_intro m c); iexact HO
    isplitl [H0]; · iexact H0
    isplitl [H1]; · iexact H1
    isplitl [H2]; · iexact H2
    isplitl [H3]; · iexact H3
    iexact H4

end Cert.Proof.KernelIdeal

end
-- ==== Proof.LaunchIdeal.lean ====
/-
  The launch: from any memory with every semaphore counter at zero, every weakly fair execution of the program
  terminates without a fault; the two argument arrays end as launched, and the scalar result holds what the host lines
  after the region compute from the eight row totals the kernel wrote. Each argument array is handed to two input
  windows (a row block and a column block of the same matrix), so its full share is dealt in halves between the two
  windows on it; the output array is held outright. The host lines after the region (a zero, the sum of the eight row
  totals, the constant 2^24 and the quotient) read the output array and write four scalars of their own.
-/
import proofs.«157802_j26560077758605_1_alg».proof.Proof.DataIdeal
import Idealize.ShloMosaic.Lib.Pipeline.FrameSuffix

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

set_option Elab.async false

variable {F : FTy → Type} [FloatOps F]

local notation "𝕄" => MT nD τ sig Unit (Elt F) ℕ UC ℕ

variable (m : (ℓ : Loc nD τ sig) → Buf (Elt F) ℓ) (ρ : Dev nD → PrngReg)

/-- A buffer of core `c` held whole at share `q` and contents `f`. -/
abbrev pt (c : Dev nD) (b : Ref sig .tc) (q : PosShare TreeShare) (f : Buf (Elt F) ((c : Thread nD τ).loc b)) : sProp 𝕄 :=
  ((c : Thread nD τ).loc b) ↦{q} f

/-! ## The arrays and their shares -/

/-- The three buffers behind the five windows. -/
theorem arrBufs_eq (c : Dev nD) (W : (b : Ref sig .tc) → Buf (Elt F) ((c : Thread nD τ).loc b)) :
    (Pipeline.arrBufs (Ix := Unit) (Name := ℕ) (U := UC) (Lvl := ℕ) spec0 c W : sProp 𝕄)
      = iprop(pt c main_arg0 fullShare (W main_arg0) ∗ pt c main_arg1 fullShare (W main_arg1) ∗ pt c main_v0 fullShare (W main_v0)) := by
  unfold Pipeline.arrBufs
  rw [bigSep_eq_bigSepL_of_eq [main_arg0, main_arg1, main_v0] (by decide) (by decide)]
  rfl

/-- The pipeline's arrays, window by window: each argument array at its two halves, the output array outright. -/
theorem arrays_eq5 (c : Dev nD) (Fa : (w : Fin cfg0.W) → Buf (Elt F) ((cfg0.win w).arr.view.loc (c : Thread nD τ))) :
    ((dats m 0 c).arrays Fa : sProp 𝕄)
      = iprop(pt c main_arg0 fullShare.left (Fa 0) ∗ pt c main_arg0 fullShare.right (Fa 1) ∗ pt c main_arg1 fullShare.left (Fa 2)
          ∗ pt c main_arg1 fullShare.right (Fa 3) ∗ pt c main_v0 fullShare (Fa 4)) := by
  unfold Dat.arrays
  rw [bigSep_W0]
  rw [(arr_whole0 0).set_eq_univ, (arr_whole0 2).set_eq_univ, (arr_whole0 4).set_eq_univ]
  rfl

theorem hsplit (c : Dev nD) :
    (Pipeline.arrBufs (Ix := Unit) (Name := ℕ) (U := UC) (Lvl := ℕ) spec0 c (V m c) : sProp 𝕄)
      ⊢ (dats m 0 c).arrays ((dats m 0 c).arrAt · 0) := by
  rw [arrBufs_eq, arrays_eq5]
  iintro ⟨H0, H1, H2⟩
  ihave H0 := (pointsTo_share (PosShare.mem_left_op_right fullShare)).1 $$ H0
  ihave H1 := (pointsTo_share (PosShare.mem_left_op_right fullShare)).1 $$ H1
  icases H0 with ⟨H0l, H0r⟩
  icases H1 with ⟨H1l, H1r⟩
  isplitl [H0l]; · iexact H0l
  isplitl [H0r]; · iexact H0r
  isplitl [H1l]; · iexact H1l
  isplitl [H1r]; · iexact H1r
  iexact H2

/-! ## The host lines after the region -/

/-- The buffers the host lines touch: the kernel's output array and the four scalars they write. -/
def tailS : Finset (DevRef τ sig) :=
  {Proc.devRef .tc main_v0, Proc.devRef .tc main_cst, Proc.devRef .tc main_v1, Proc.devRef .tc main_cst_0, Proc.devRef .tc main_v2}

/-- The buffers at the region's exit: the output array at what the kernel wrote, the rest as launched; -/
def Wexit (c : Dev nD) : Valuation τ sig (Elt F) :=
  Function.update (fun b => m ((c : Dev nD), b)) (Proc.devRef .tc main_v0) ((dats m 0 c).arrAt 4 cfg0.N)
/-- and after the host lines. -/
def Wend (c : Dev nD) : Valuation τ sig (Elt F) :=
  StableHlo.after ([hostOps1] : List (List (HloOp τ sig (Elt F)))).flatten (Wexit m c)

theorem held_tailS (c : Dev nD) (W : Valuation τ sig (Elt F)) : (StableHlo.held (c : Thread nD τ) tailS W : sProp 𝕄)
    = iprop(pt c main_v0 fullShare (W main_v0) ∗ pt c main_cst fullShare (W main_cst) ∗ pt c main_v1 fullShare (W main_v1)
        ∗ pt c main_cst_0 fullShare (W main_cst_0) ∗ pt c main_v2 fullShare (W main_v2)) := by
  unfold StableHlo.held tailS
  rw [bigSep_eq_bigSepL_of_eq [Proc.devRef .tc main_v0, Proc.devRef .tc main_cst, Proc.devRef .tc main_v1, Proc.devRef .tc main_cst_0, Proc.devRef .tc main_v2] (by decide) (by decide)]
  rfl

theorem tail_sub : ∀ ops ∈ ([hostOps1] : List (List (HloOp τ sig (Elt F)))), ∀ op ∈ ops, op.bufs ⊆ tailS := by
  intro ops hops op hop
  simp only [List.mem_singleton] at hops; subst hops
  simp only [List.mem_cons, List.not_mem_nil, or_false] at hop
  rcases hop with rfl | rfl | rfl | rfl
  · show ({Proc.devRef .tc main_cst} : Finset (DevRef τ sig)) ⊆ tailS; decide
  · show ({Proc.devRef .tc main_v0, Proc.devRef .tc main_cst, Proc.devRef .tc main_v1} : Finset (DevRef τ sig)) ⊆ tailS; decide
  · show ({Proc.devRef .tc main_cst_0} : Finset (DevRef τ sig)) ⊆ tailS; decide
  · show ({Proc.devRef .tc main_v1, Proc.devRef .tc main_cst_0, Proc.devRef .tc main_v2} : Finset (DevRef τ sig)) ⊆ tailS; decide

theorem tail_fresh : ∀ ops ∈ ([hostOps1] : List (List (HloOp τ sig (Elt F)))), ∀ op ∈ ops, op.fresh = ∅ := by
  intro ops hops op hop
  simp only [List.mem_singleton] at hops; subst hops
  simp only [List.mem_cons, List.not_mem_nil, or_false] at hop
  rcases hop with rfl | rfl | rfl | rfl <;> rfl

/-- No host line writes the kernel's output array. -/
theorem Wend_v0 (c : Dev nD) : Wend m c main_v0 = (dats m 0 c).arrAt 4 cfg0.N := by
  unfold Wend
  rw [StableHlo.after_of_forall_not_mem _ _ fun op hop => ?_]
  · unfold Wexit; exact Function.update_self _ _ _
  · simp only [List.flatten_cons, List.flatten_nil, List.append_nil, List.mem_cons, List.not_mem_nil, or_false] at hop
    rcases hop with rfl | rfl | rfl | rfl
    · show Proc.devRef .tc main_v0 ∉ ({Proc.devRef .tc main_cst} : Finset (DevRef τ sig)); decide
    · show Proc.devRef .tc main_v0 ∉ ({Proc.devRef .tc main_v1} : Finset (DevRef τ sig)); decide
    · show Proc.devRef .tc main_v0 ∉ ({Proc.devRef .tc main_cst_0} : Finset (DevRef τ sig)); decide
    · show Proc.devRef .tc main_v0 ∉ ({Proc.devRef .tc main_v2} : Finset (DevRef τ sig)); decide

/-- The four scalars the host lines write, held at what the lines leave. -/
abbrev Zend (c : Dev nD) : sProp 𝕄 :=
  iprop(pt c main_cst fullShare (Wend m c main_cst) ∗ pt c main_v1 fullShare (Wend m c main_v1)
    ∗ pt c main_cst_0 fullShare (Wend m c main_cst_0) ∗ pt c main_v2 fullShare (Wend m c main_v2))

set_option backward.isDefEq.respectTransparency.types false in
theorem htail (c : Dev nD) (Q' : PUnit → sProp 𝕄) :
    iprop((iprop((dats m 0 c).arrays ((dats m 0 c).arrAt · cfg0.N) ∗ Zend m c) -∗ Q' ⟨⟩)
        ∗ boundary (c : Thread nD τ) ∗ (dats m 0 c).arrays ((dats m 0 c).arrAt · cfg0.N)
        ∗ Pipeline.unscopedRest (Ix := Unit) (Name := ℕ) (U := UC) (Lvl := ℕ) spec0 c (V m c))
      ⊢ wp frame (wpE (Pipeline.defs (pcfgs (F := F)) defs₀) (Variants.lift 𝒱₀) (c : Thread nD τ) none) Set.univ
          (Pipeline.chain ([hostOps1].map StableHlo.seq)) Q' := by
  rw [arrays_eq5, unscopedRest0_eq, ← List.append_nil ([hostOps1].map StableHlo.seq)]
  iintro ⟨Hk, Hb, ⟨A0, A1, A2, A3, A4⟩, ⟨Z0, Z1, Z2, Z3⟩⟩
  iapply (Pipeline.wp_seqs_then (pcfgs (F := F)) defs₀ 𝒱₀ c tailS [] [hostOps1] tail_sub tail_fresh (Wexit m c)) $$ [Hb A4 Z0 Z1 Z2 Z3]
  · isplitl [Hb]; · iexact Hb
    rw [held_tailS]
    isplitl [A4]
    · rw [show Wexit m c main_v0 = (dats m 0 c).arrAt 4 cfg0.N from Function.update_self _ _ _]; iexact A4
    isplitl [Z0]; · iexact Z0
    isplitl [Z1]; · iexact Z1
    isplitl [Z2]; · iexact Z2
    iexact Z3
  iintro Hb
  rw [Pipeline.chain_nil, wp_pure, held_tailS]
  imodintro
  iapply Hk
  icases Hb with ⟨-, B0, B1, B2, B3, B4⟩
  isplitl [A0 A1 A2 A3 B0]
  · isplitl [A0]; · iexact A0
    isplitl [A1]; · iexact A1
    isplitl [A2]; · iexact A2
    isplitl [A3]; · iexact A3
    rw [show StableHlo.after ([hostOps1] : List (List (HloOp τ sig (Elt F)))).flatten (Wexit m c) main_v0 = (dats m 0 c).arrAt 4 cfg0.N from Wend_v0 m c]
    iexact B0
  isplitl [B1]; · iexact B1
  isplitl [B2]; · iexact B2
  isplitl [B3]; · iexact B3
  iexact B4

/-! ## The run -/

/-- The run's post: the scalar result at what the host lines leave, the argument arrays as launched. -/
def RunPost (r : PUnit × MemSt nD τ sig (Elt F)) : Prop :=
  ∀ c : Dev nD, r.2.mem ((c : Thread nD τ).loc main_v2) = Wend m c main_v2
    ∧ r.2.mem ((c : Thread nD τ).loc main_arg0) = m ((c : Thread nD τ).loc main_arg0)
    ∧ r.2.mem ((c : Thread nD τ).loc main_arg1) = m ((c : Thread nD τ).loc main_arg1)

/-- @main is the region followed by the four host lines. -/
theorem hmain : Pipeline.HMainPK (Ix := Unit) (Name := ℕ) (U := UC) (Lvl := ℕ) (pcfgs (F := F)) 0 defs₀ 𝒱₀ m (main (F := F))
    (fun c b => StableHlo.after ([] : List (List (HloOp τ sig (Elt F)))).flatten (fun b => m (c, b)) b)
    (fun _ => Pipeline.chain ([hostOps1].map StableHlo.seq)) :=
  Pipeline.hmainP_around (pcfgs (F := F)) 0 defs₀ 𝒱₀ m main [] [hostOps1] trivial trivial (fun c => (main_chain c).trans rfl)

theorem hin (c : Dev nD) :
    iprop((emp : sProp 𝕄) ∗ Pipeline.prefHeld (pcfgs (F := F) 0).pre c (fun _ => fullShare.right) ((cfgs 0).toPCfg_adm (Val := Elt F)).1
      ∗ Pipeline.scopedRest (Ix := Unit) (Name := ℕ) (U := UC) (Lvl := ℕ) (Val := Elt F) spec0 c) ⊢ (dats m 0 c).Φ 0 := by
  rw [scopedRest0_eq, show (dats m 0 c).Φ 0 = Φv m c 0 from rfl]
  unfold Φv; rw [dif_pos (by decide)]
  iintro ⟨-, -, ⟨%f, Hf⟩⟩
  iexists f; rw [owns_whole_eq]; iexists f; isplitr; (· ipureintro; rfl); iexact Hf

theorem hout (c : Dev nD) :
    (dats m 0 c).Φ (Fin.last cfg0.N) ⊢ iprop((emp : sProp 𝕄) ∗ Pipeline.scopedRest (Ix := Unit) (Name := ℕ) (U := UC) (Lvl := ℕ) (Val := Elt F) spec0 c) := by
  rw [scopedRest0_eq, show (dats m 0 c).Φ (Fin.last cfg0.N) = Φv m c (Fin.last cfg0.N) from rfl]
  unfold Φv; rw [dif_pos (by decide)]; simp only [owns_whole_eq]
  iintro ⟨%a, %f, %hf, Hf⟩
  isplitr; · iempintro
  iexists f; iexact Hf

theorem hY (c : Dev nD) (s' : Phys nD τ sig (Elt F)) :
    iprop((emp : sProp 𝕄) ∗ Zend m c ∗ SI s') ⊢ |={Set.univ}=> iprop(⌜s'.mem.mem ((c : Thread nD τ).loc main_v2) = Wend m c main_v2⌝ ∗ SI s') := by
  iintro ⟨-, ⟨Z0, Z1, Z2, Z3⟩, HSI⟩
  icombine HSI Z3 gives %h
  imodintro
  isplitr; · ipureintro; exact Buf.eq_of_forall_mem_univ h
  iexact HSI

theorem run_main : θ_run (defs (F := F)) (onTc (τ := τ) (main (F := F))) ⟨m, fun _ => 0, ρ⟩ (RunPost m) :=
  Pipeline.θ_run_region_noSem_pf_tail (pcfgs (F := F)) (fun p => (cfgs p).toPCfg_adm) (dats m) () cellOf_inj 0 winFacts₀0 (Pipeline.PreFacts.none _) embL defs₀ 𝒱₀
    m ρ main (fun _ => Pipeline.chain ([hostOps1].map StableHlo.seq))
    (hbody := fun c => (body_obligation m c).loose)
    (hne := block_pos0) (harr := arr_whole0) (hstage := stage_whole0)
    (howed := fun _ _ => rfl)
    (u₀ := (initOf (Pipeline.cells cfgs cellOf_inj) (Pipeline.launchToks cfgs cellOf_inj), 1))
    (hu₀ := by
      iintro Hu
      ihave H := (ownU_pair _ _) $$ Hu
      icases H with ⟨HP, -⟩
      iexact HP)
    (V := V m)
    (hmain := hmain m)
    (hsplit := hsplit m)
    (hpf := fun _ k => k.elim0)
    (X := fun _ => iprop(emp)) (Y := fun _ => iprop(emp))
    (Z := fun c => Pipeline.unscopedRest spec0 c (V m c)) (Z' := fun c => Zend m c)
    (hX := fun c => by
      rw [Pipeline.unscopedRestP_none]
      iintro H; isplitr; · iempintro
      iexact H)
    (hin := hin m)
    (hout := hout m)
    (htail := htail m)
    (QY := fun c s => s.mem ((c : Thread nD τ).loc main_v2) = Wend m c main_v2)
    (hY := hY m)
    (hQ := fun s h c => ⟨(h c).2.2, ((h c).1 0).trans ((dats m 0 c).arrAt_in 0 rfl _), ((h c).1 2).trans ((dats m 0 c).arrAt_in 2 rfl _)⟩)

end Cert.Proof.KernelIdeal

end
-- ==== Proof.LibCoeVec.lean ====
/-
  Arrays of real numbers read as arrays of extended reals, and how the ideal operations act on them.

  For a real-valued array `X` over a shape, `cv X` is the array of the same numbers as extended reals. Every
  entry-by-entry operation (sum, difference, product, exponential, a splat scalar) of such arrays is the array of the
  real results; a layout operation (reshape, transpose, broadcast, a load of the whole block) moves entries and commutes
  with the reading; a sum over one axis and a matrix product into the zero block are the arrays of the real sums.
  So a payload built from these operations, applied to real-valued blocks, is `cv` of the same expression over the reals.
-/
import Idealize.ShloMosaic.Lib.Pipeline.Value
import Idealize.ShloMosaic.Lib.ValueIdx
import Idealize.ShloMosaic.PureOps.Ideal.Laws

noncomputable section

namespace Cert.LibCoeVec

open Idealize.ShloMosaic Idealize.ShloMosaic.ValueIdx

/-- A real-valued array read as extended reals, at any float format (a change of format is the identity). -/
def cv {S : Shape} {φ : FTy} (X : S.Idx → ℝ) : FVec Ideal S φ := fun i => ((X i : ℝ) : EReal)

theorem cv_apply {S : Shape} {φ : FTy} (X : S.Idx → ℝ) (i : S.Idx) : (cv X : FVec Ideal S φ) i = ((X i : ℝ) : EReal) := rfl

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {S : Shape} {φ : FTy}

/-! ## Entry by entry -/

theorem cv_mulf (A B : S.Idx → ℝ) : mulf (cv A : FVec Ideal S φ) (cv B) = cv (fun i => A i * B i) :=
  funext fun i => (EReal.coe_mul (A i) (B i)).symm
theorem cv_addf (A B : S.Idx → ℝ) : addf (cv A : FVec Ideal S φ) (cv B) = cv (fun i => A i + B i) :=
  funext fun i => (EReal.coe_add (A i) (B i)).symm
theorem cv_subf (A B : S.Idx → ℝ) : subf (cv A : FVec Ideal S φ) (cv B) = cv (fun i => A i - B i) :=
  funext fun i => (EReal.coe_sub (A i) (B i)).symm
theorem cv_exp (A : S.Idx → ℝ) : exp (cv A : FVec Ideal S φ) = cv (fun i => Real.exp (A i)) := rfl
theorem cv_truncf {ψ : FTy} (A : S.Idx → ℝ) (h : ψ.bits < φ.bits) : (truncf ψ (cv A : FVec Ideal S φ) h : FVec Ideal S ψ) = cv A := rfl
/-- A scalar that denotes the real `c`, splat over a shape. -/
theorem cv_broadcast (x : Ideal φ) (c : ℝ) (h : x = ((c : ℝ) : EReal)) : (broadcast S x : FVec Ideal S φ) = cv (fun _ => c) :=
  funext fun _ => h

/-! ## Layout -/

theorem cv_shapeCast {T : Shape} (A : S.Idx → ℝ) (h : S.ShapeCasts T) : shapeCast T (cv A : FVec Ideal S φ) h = cv (shapeCast T A h) := rfl
theorem cv_transpose {T : Shape} (perm : List (Fin S.rank)) (A : S.Idx → ℝ) (h : S.Transposes perm T) :
    transpose T perm (cv A : FVec Ideal S φ) h = cv (transpose T perm A h) := rfl
theorem cv_broadcastTo {T : Shape} (A : S.Idx → ℝ) (h : S.Broadcasts T) : broadcastTo T (cv A : FVec Ideal S φ) h = cv (broadcastTo T A h) := rfl

/-! ## Sums -/

/-- A sum over one axis of an array of reals, as a kernel's reduction spells it. -/
theorem cv_multiReduction_add {T : Shape} {a : Fin S.rank} (A : S.Idx → ℝ) (acc : BitVec φ.bits) (h : S.Reduces [a] T)
    (hφ : FKind.Formats φ) (hacc : acc = FKind.add.neutral φ hφ) :
    multiReduction .add [a] T (cv A : FVec Ideal S φ) acc h hφ hacc = cv (fun j => ∑ k : Fin (S.size a), A (h.lift j k)) :=
  funext fun j => (Ideal.multiReduction_add_single (cv A) acc h hφ hacc j).trans (coe_sum _ _).symm

/-- A matrix product of two arrays of reals into the zero block. -/
theorem cv_matmul_zero {sl sr so : Shape} {φ₁ φ₂ : FTy} (d : DotDims sl sr so) (prec : Option ContractPrecision)
    (A : sl.Idx → ℝ) (B : sr.Idx → ℝ) :
    matmul d prec (cv A : FVec Ideal sl φ₁) (cv B : FVec Ideal sr φ₂) (constant (F := Ideal) so .f32 0x00000000#32)
      = cv (fun j => ∑ k : d.contr.Idx, A (d.lhsIdx j k) * B (d.rhsIdx j k)) :=
  funext fun j => by
    simp only [matmul]
    rw [Ideal.matmul_constant_zero_apply]
    show ∑ k : d.contr.Idx, ((A (d.lhsIdx j k) : ℝ) : EReal) * ((B (d.rhsIdx j k) : ℝ) : EReal) = _
    rw [cv_apply, coe_sum]
    exact Finset.sum_congr rfl fun k _ => (EReal.coe_mul _ _).symm

end Cert.LibCoeVec

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibLane.lean ====
/-
  Lane operations of a two-axis array read at an index, over any extents `a × b`:

  * `ld_lanes`: a unit-stride load of `b` consecutive lanes from lane `off` of every row of an `a × n` block reads,
    at (r, j), the block at (r, off + j);
  * `lift_lane`: the index over row `r` of the lane-reduced shape `[a]` whose lane is `k` is (r, k);
  * `reduceAdd_lane_apply`: the sum over the lanes (`Ideal.reduceAdd` over axis 1) reads, at row `r`, the sum of the row;
  * `reduceFold_max_lane_apply`: the fold of `maximumf` over the lanes (`reduceFold` over axis 1) reads, at row `r`, the
    `Finset.fold max` of the row from the starting value;
  * `exp_apply`, `log_apply`, `absf_apply`, `cmpf_ideal_apply`: the entry-by-entry operations the library's index file
    does not list, at the extended reals.

  A `vector.multi_reduction <add>` over one axis is, by definition, `FloatOps.reduceAdd` of the source over that axis — at
  the extended reals `Ideal.reduceAdd` — and a `<maximumf>` one is `reduceFold` of `maximumf` from the accumulator's value:
  the sum lemma and the maximum lemma are stated over those two forms.
-/
import Idealize.ShloMosaic.Lib.Pipeline.FrameBody
import Idealize.ShloMosaic.Lib.Pipeline.Value
import Idealize.ShloMosaic.Lib.ValueIdx
import Idealize.ShloMosaic.PureOps.Ideal.Laws

noncomputable section

namespace Cert.LibLane

open Idealize.ShloMosaic Idealize.ShloMosaic.ValueIdx

/-! ## Entry-by-entry operations -/

theorem exp_apply {s : Shape} (v : FVec Ideal s .f32) (i : s.Idx) : exp v i = Ideal.exp (v i) := rfl
theorem log_apply {s : Shape} (v : FVec Ideal s .f32) (i : s.Idx) : log v i = Ideal.log (v i) := rfl
theorem absf_apply {s : Shape} (v : FVec Ideal s .f32) (i : s.Idx) : absf v i = max (v i) (-(v i)) := rfl
theorem cmpf_ideal_apply {s : Shape} (p : CmpFPredicate) (a b : FVec Ideal s .f32) (i : s.Idx) :
    cmpf p a b i = Ideal.cmp p (a i) (b i) := rfl

/-! ## A load of `b` consecutive lanes, from lane `off`, of every row of an `a × n` block -/

/-- The load reads, at row `r` and lane `j` of the piece, the block at row `r` and lane `off + j`. -/
theorem ld_lanes {α : Type} {a b n : ℕ} (X : (⟨2, ![a, n]⟩ : Shape).Idx → α) (off : ℕ)
    (inb : ∀ ax, (![0, off] : Fin 2 → ℕ) ax + (⟨2, ![a, b]⟩ : Shape).size ax ≤ (⟨2, ![a, n]⟩ : Shape).size ax)
    (r : Fin a) (j : Fin b) (hj : off + j.val < n) :
    (fun x => X ((Rect.unit (s := ⟨2, ![a, n]⟩) ![0, off] (⟨2, ![a, b]⟩ : Shape).size inb).idx x)) (ix2 r j)
      = X (ix2 r ⟨off + j.val, hj⟩) := by
  show X _ = X _
  congr 1
  funext ax
  apply Fin.ext
  match ax with
  | ⟨0, _⟩ => show 0 + 1 * r.val = r.val; omega
  | ⟨1, _⟩ => show off + 1 * j.val = off + j.val; omega

/-! ## A lane reduction kept as a column -/

/-- The index of an `a × b` array over row `r` whose lane is `k`. -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the lanes of an `a × b` array reads, at row `r`, the sum of the row. -/
theorem reduceAdd_lane_apply {a b : ℕ} (v : FVec Ideal ⟨2, ![a, b]⟩ .f32)
    (h : (⟨2, ![a, b]⟩ : Shape).Reduces [1] (⟨1, ![a]⟩ : Shape)) (r : Fin a) :
    Ideal.reduceAdd h v (ix1 r) = ∑ j : Fin b, v (ix2 r j) := by
  rw [Ideal.reduceAdd_single]
  exact Finset.sum_congr rfl fun k _ => congrArg v (lift_lane h r k)

/-- The maximum over the lanes likewise: at row `r` the fold of `max` over the row from the starting value. -/
theorem reduceFold_max_lane_apply {a b : ℕ} (v : FVec Ideal ⟨2, ![a, b]⟩ .f32)
    (h : (⟨2, ![a, b]⟩ : Shape).Reduces [1] (⟨1, ![a]⟩ : Shape)) (init : Ideal .f32) (r : Fin a) :
    reduceFold h (FloatOps.maximumf (F := Ideal) (φ := .f32)) init v (ix1 r)
      = (Finset.univ : Finset (Fin b)).fold max init fun j => v (ix2 r j) := by
  rw [reduceFold_eq_fold]
  refine (h.fold_filter_drop_single _ _ v (ix1 r)).trans ?_
  have hf : (v ∘ h.lift (ix1 r)) = fun k : Fin b => v (ix2 r k) := funext fun k => congrArg v (lift_lane h r k)
  exact congrArg (fun f => Finset.fold max init f (Finset.univ : Finset (Fin b))) hf

end Cert.LibLane

end
-- ==== Proof.Consts.lean ====
/-
  The float constants the two programs spell, as the reals their bit patterns denote: the Gaussian widths' reciprocals
  1, 1/2, 1/4, 1/8, 1/16 (the kernel multiplies by them), the widths 1, 2, 4, 8, 16 (the reference divides by them),
  the factor 2 of the squared distance and of the cross term, and the count 2^24 of pairs the mean divides by.
-/
import Idealize.ShloMosaic.PureOps.Ideal

noncomputable section

namespace Cert.MmdConsts

open Idealize.ShloMosaic

theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_sixteenth : Ideal.ofBits .f32 0x3D800000#32 = ((1 / 16 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_sixteen : Ideal.ofBits .f32 0x41800000#32 = ((16 : ℝ) : EReal) := by
  simp [Ideal.ofBits, Ideal.ieee, -EReal.coe_mul]; norm_num
theorem ofBits_count : Ideal.ofBits .f32 0x4B800000#32 = ((16777216 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]

end Cert.MmdConsts

end
-- ==== Proof.TileReal.lean ====
/-
  The body's arithmetic on blocks of real numbers. With the four loaded blocks holding real numbers, every payload of the
  body is the array of the corresponding real expressions: the row sums of squares, the three tables of dot products,
  the three tables of squared distances, the signed sum of five Gaussian kernels of each, and the tile's total added to
  the accumulator.
-/
import proofs.«157802_j26560077758605_1_alg».proof.Proof.BodyIdeal
import proofs.«157802_j26560077758605_1_alg».proof.Proof.LibCoeVec
import proofs.«157802_j26560077758605_1_alg».proof.Proof.LibColumn
import proofs.«157802_j26560077758605_1_alg».proof.Proof.LibLane
import proofs.«157802_j26560077758605_1_alg».proof.Proof.Consts
import Idealize.ShloMosaic.Lib.ValueLayout

noncomputable section

namespace Cert.Proof.KernelIdeal

open Cert.KernelIdeal Cert.KernelIdeal.Gen
open Idealize.ShloMosaic Idealize.ShloMosaic.ValueIdx
open Cert.LibCoeVec Cert.MmdConsts

/-- The sum of squares of row `r` of a 512 x 256 block, and the dot product of row `r` of one block with row `s` of another. -/
def sqR (X : S512x256.Idx → ℝ) (r : Fin 512) : ℝ := ∑ k : Fin 256, X (ix2 r k) * X (ix2 r k)
def dotR (X Y : S512x256.Idx → ℝ) (r s : Fin 512) : ℝ := ∑ k : Fin 256, X (ix2 r k) * Y (ix2 s k)

local notation "cf" => cv (φ := FTy.f32)
local notation "cb" => cv (φ := FTy.bf16)

/-- The row sums of squares kept as a column. -/
theorem pay3_cv (X : S512x256.Idx → ℝ) (r : Fin 512) (u : Fin 1) :
    k0_pay3 (F := Ideal) (cf X) (ix2 r u) = ((sqR X r : ℝ) : EReal) := by
  unfold k0_pay3
  refine (Cert.LibColumn.shapeCast_a_a1_apply _ _ r u).trans ?_
  refine (Ideal.multiReduction_add_single _ _ _ _ _ (ix1 r)).trans ?_
  unfold sqR
  rw [coe_sum]
  refine Finset.sum_congr rfl fun k _ => ?_
  rw [Cert.LibLane.lift_lane]
  exact (EReal.coe_mul _ _).symm

/-- The same column laid as a row. -/
theorem pay4_cv (X : S512x256.Idx → ℝ) (u : Fin 1) (s : Fin 512) :
    k0_pay4 (F := Ideal) (cf X) (ix2 u s) = ((sqR X s : ℝ) : EReal) := by
  unfold k0_pay4
  refine (transpose_ix2_apply _ _ u s).trans ?_
  refine (Cert.LibColumn.shapeCast_a_a1_apply _ _ s u).trans ?_
  refine (Ideal.multiReduction_add_single _ _ _ _ _ (ix1 s)).trans ?_
  unfold sqR
  rw [coe_sum]
  refine Finset.sum_congr rfl fun k _ => ?_
  rw [Cert.LibLane.lift_lane]
  exact (EReal.coe_mul _ _).symm

/-! The matrix product of one block with the transpose of another: the operand index maps of its dimension record. -/

theorem dl0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem dl1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem dr0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem dr1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- Rows of one block against rows of another: the table of dot products. -/
theorem matmul_cv (X Y : S512x256.Idx → ℝ) (r s : Fin 512) :
    matmul dot_S512x256_S512x256_S512x512_1_1_0_0_n_n none (cb X) (cb Y) (constant (F := Ideal) S512x512 .f32 0x00000000#32) (ix2 r s)
      = ((dotR X Y r s : ℝ) : EReal) := by
  simp only [matmul]
  rw [Ideal.matmul_constant_zero_apply, ← Equiv.sum_comp (contrEquiv1 dot_S512x256_S512x256_S512x512_1_1_0_0_n_n 256 rfl rfl).symm]
  unfold dotR
  rw [coe_sum]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 r s) ((contrEquiv1 dot_S512x256_S512x256_S512x512_1_1_0_0_n_n 256 rfl rfl).symm k) = ix2 r k := funext fun a => Fin.ext (by
    match a with
    | ⟨0, _⟩ => exact dl0 _ _
    | ⟨1, _⟩ => exact (dl1 _ _).trans hk)
  have er : dot_S512x256_S512x256_S512x512_1_1_0_0_n_n.rhsIdx (ix2 r s) ((contrEquiv1 dot_S512x256_S512x256_S512x512_1_1_0_0_n_n 256 rfl rfl).symm k) = ix2 s k := funext fun a => Fin.ext (by
    match a with
    | ⟨0, _⟩ => exact dr0 _ _
    | ⟨1, _⟩ => exact (dr1 _ _).trans hk)
  rw [el, er]
  exact (EReal.coe_mul _ _).symm

/-- The squared distance between row `r` of `X` and row `s` of `Y`, as the body forms it. -/
def l2R (X Y : S512x256.Idx → ℝ) (r s : Fin 512) : ℝ := (sqR X r + sqR Y s) - 2 * dotR X Y r s

theorem two_cv : (Scalar.ofBits (F := Ideal) .f32 0x40000000#32 : Ideal .f32) = ((2 : ℝ) : EReal) := ofBits_two

/-- The source-source table. -/
theorem pay9_cv (X0 X1 : S512x256.Idx → ℝ) (r s : Fin 512) :
    k0_pay9 (F := Ideal) (cf X0) (cf X1) (ix2 r s) = ((l2R X0 X1 r s : ℝ) : EReal) := by
  unfold k0_pay9
  simp only [subf_apply, addf_apply, mulf_apply, broadcast_apply]
  rw [Cert.LibColumn.broadcastTo_a1_ab_apply, broadcastTo_1b_ab_apply, pay3_cv]
  rw [show (k0_pay5 (F := Ideal) (cf X0)) = cb X0 from rfl, show (truncf .bf16 (cf X1) bitsLt_bf16_f32 : FVec Ideal S512x256 .bf16) = cb X1 from rfl, matmul_cv, two_cv]
  have h19 := pay4_cv X1 0 s
  unfold k0_pay4 at h19
  rw [h19]
  unfold l2R
  rw [EReal.coe_sub, EReal.coe_add, EReal.coe_mul]

/-! ## The tables as arrays of reals -/

theorem pay3_vec (X : S512x256.Idx → ℝ) : k0_pay3 (F := Ideal) (cf X) = cf (fun i : S512x1.Idx => sqR X (i 0)) :=
  funext fun i => by rw [eq_ix2 i]; exact pay3_cv X _ _
theorem pay4_vec (X : S512x256.Idx → ℝ) : k0_pay4 (F := Ideal) (cf X) = cf (fun i : S1x512.Idx => sqR X (i 1)) :=
  funext fun i => by rw [eq_ix2 i]; exact pay4_cv X _ _
theorem pay7_vec (X Y : S512x256.Idx → ℝ) : k0_pay7 (F := Ideal) (cf X) (cf Y) = cf (fun i : S512x512.Idx => dotR X Y (i 0) (i 1)) :=
  funext fun i => by rw [eq_ix2 i]; exact matmul_cv X Y _ _
theorem pay8_vec (X Y : S512x256.Idx → ℝ) : k0_pay8 (F := Ideal) (cf X) (cf Y) = cf (fun i : S512x512.Idx => dotR X Y (i 0) (i 1)) :=
  funext fun i => by rw [eq_ix2 i]; exact matmul_cv X Y _ _
theorem pay9_vec (X Y : S512x256.Idx → ℝ) : k0_pay9 (F := Ideal) (cf X) (cf Y) = cf (fun i : S512x512.Idx => l2R X Y (i 0) (i 1)) :=
  funext fun i => by rw [eq_ix2 i]; exact pay9_cv X Y _ _

/-- A column broadcast along the rows plus a row broadcast along the columns. -/
theorem colrow_vec (f g : Fin 512 → ℝ) :
    addf (broadcastTo S512x512 (cf (fun i : S512x1.Idx => f (i 0))) broadcasts_S512x1_S512x512)
      (broadcastTo S512x512 (cf (fun i : S1x512.Idx => g (i 1))) broadcasts_S1x512_S512x512)
      = cf (fun i : S512x512.Idx => f (i 0) + g (i 1)) :=
  funext fun i => by
    obtain ⟨r, s, rfl⟩ : ∃ (r s : Fin 512), i = ix2 r s := ⟨i 0, i 1, eq_ix2 i⟩
    refine (congrArg₂ (· + ·) (Cert.LibColumn.broadcastTo_a1_ab_apply _ _ r s) (broadcastTo_1b_ab_apply _ _ r s)).trans ?_
    exact (EReal.coe_add _ _).symm

theorem pay10_cv (X Y : S512x256.Idx → ℝ) (r s : Fin 512) :
    k0_pay10 (F := Ideal) (cf X) (cf Y) (ix2 r s) = ((sqR X r + sqR Y s : ℝ) : EReal) := by
  unfold k0_pay10
  simp only [addf_apply]
  rw [Cert.LibColumn.broadcastTo_a1_ab_apply, broadcastTo_1b_ab_apply, pay4_cv]
  have h3 := pay3_cv X r 0
  unfold k0_pay3 at h3
  rw [h3]
  exact (EReal.coe_add _ _).symm
theorem pay10_vec (X Y : S512x256.Idx → ℝ) : k0_pay10 (F := Ideal) (cf X) (cf Y) = cf (fun i : S512x512.Idx => sqR X (i 0) + sqR Y (i 1)) :=
  funext fun i => by rw [eq_ix2 i]; exact pay10_cv X Y _ _

/-! ## The splat constants -/

theorem bc_two {S : Shape} : (broadcast S (Scalar.ofBits (F := Ideal) .f32 0x40000000#32) : FVec Ideal S .f32) = cf (fun _ => 2) := cv_broadcast _ _ ofBits_two
theorem bc_zero {S : Shape} : (broadcast S (Scalar.ofBits (F := Ideal) .f32 0x00000000#32) : FVec Ideal S .f32) = cf (fun _ => 0) := cv_broadcast _ _ ofBits_zero
theorem bc_one {S : Shape} : (broadcast S (Scalar.ofBits (F := Ideal) .f32 0x3F800000#32) : FVec Ideal S .f32) = cf (fun _ => 1) := cv_broadcast _ _ ofBits_one
theorem bc_half {S : Shape} : (broadcast S (Scalar.ofBits (F := Ideal) .f32 0x3F000000#32) : FVec Ideal S .f32) = cf (fun _ => 1 / 2) := cv_broadcast _ _ ofBits_half
theorem bc_quarter {S : Shape} : (broadcast S (Scalar.ofBits (F := Ideal) .f32 0x3E800000#32) : FVec Ideal S .f32) = cf (fun _ => 1 / 4) := cv_broadcast _ _ ofBits_quarter
theorem bc_eighth {S : Shape} : (broadcast S (Scalar.ofBits (F := Ideal) .f32 0x3E000000#32) : FVec Ideal S .f32) = cf (fun _ => 1 / 8) := cv_broadcast _ _ ofBits_eighth
theorem bc_sixteenth {S : Shape} : (broadcast S (Scalar.ofBits (F := Ideal) .f32 0x3D800000#32) : FVec Ideal S .f32) = cf (fun _ => 1 / 16) := cv_broadcast _ _ ofBits_sixteenth

theorem pay11_vec : (k0_pay11 (F := Ideal)) = cf (fun _ : S512x512.Idx => 2) := by unfold k0_pay11; exact bc_two

/-! ## The three tables of squared distances -/

theorem pay12_vec (A B C : S512x512.Idx → ℝ) : k0_pay12 (F := Ideal) (cf A) (cf B) (cf C) = cf (fun i => B i - C i * A i) := by
  unfold k0_pay12; simp only [cv_mulf, cv_subf]

theorem pay13_vec (f g : Fin 512 → ℝ) (D : S512x512.Idx → ℝ) :
    k0_pay13 (F := Ideal) (cf (fun i : S512x1.Idx => f (i 0))) (cf (fun i : S1x512.Idx => g (i 1))) (cf D)
      = cf (fun i : S512x512.Idx => (f (i 0) + g (i 1)) - 2 * D i) := by
  unfold k0_pay13; simp only [colrow_vec, bc_two, cv_mulf, cv_subf]

/-- One Gaussian kernel of a squared distance at reciprocal width `σ`, as the body spells it. -/
def gE (d σ : ℝ) : ℝ := Real.exp ((0 - d) * σ)

/-- The signed sum of the five kernels of the three squared distances, in the body's order of operations. -/
def diffR (a b c : ℝ) : ℝ :=
  ((((((((((((((0 + gE a 1) + gE b 1) - 2 * gE c 1) + gE a (1 / 2)) + gE b (1 / 2)) - 2 * gE c (1 / 2)) + gE a (1 / 4)) + gE b (1 / 4))
    - 2 * gE c (1 / 4)) + gE a (1 / 8)) + gE b (1 / 8)) - 2 * gE c (1 / 8)) + gE a (1 / 16)) + gE b (1 / 16)) - 2 * gE c (1 / 16)

/-- The kernels at the two widest reciprocal widths, summed in the body's order (the value after the second group). -/
def part14 (a b c : ℝ) : ℝ := ((((0 + gE a 1) + gE b 1) - 2 * gE c 1) + gE a (1 / 2)) + gE b (1 / 2)
/-- The next two groups added. -/
def part16 (a b c p e : ℝ) : ℝ :=
  (((((((p - 2 * Real.exp e) + gE a (1 / 4)) + gE b (1 / 4)) - 2 * gE c (1 / 4)) + gE a (1 / 8)) + gE b (1 / 8)) - 2 * gE c (1 / 8))

theorem pay14_vec (f g : Fin 512 → ℝ) (D26 D27 A33 B36 C37 : S512x512.Idx → ℝ) :
    k0_pay14 (F := Ideal) (cf (fun i : S512x1.Idx => f (i 0))) (cf (fun i : S1x512.Idx => g (i 1))) (cf D26) (cf D27) (cf A33) (cf B36) (cf C37)
      = cf (fun i : S512x512.Idx => part14 (A33 i) (B36 i - C37 i * D26 i) ((f (i 0) + g (i 1)) - 2 * D27 i)) := by
  unfold k0_pay14
  simp only [pay12_vec, pay13_vec, bc_zero, bc_one, bc_half, bc_two, cv_subf, cv_mulf, cv_exp, cv_addf]
  rfl

theorem pay15_vec (f g : Fin 512 → ℝ) (D27 : S512x512.Idx → ℝ) :
    k0_pay15 (F := Ideal) (cf (fun i : S512x1.Idx => f (i 0))) (cf (fun i : S1x512.Idx => g (i 1))) (cf D27)
      = cf (fun i : S512x512.Idx => (0 - ((f (i 0) + g (i 1)) - 2 * D27 i)) * (1 / 2)) := by
  unfold k0_pay15
  simp only [pay13_vec, bc_zero, bc_half, cv_subf, cv_mulf]

theorem pay16_vec (A B C P E : S512x512.Idx → ℝ) :
    k0_pay16 (F := Ideal) (cf A) (cf B) (cf C) (cf P) (cf E) = cf (fun i => part16 (A i) (B i) (C i) (P i) (E i)) := by
  unfold k0_pay16
  simp only [bc_zero, bc_quarter, bc_eighth, bc_two, cv_subf, cv_mulf, cv_exp, cv_addf]
  rfl

/-- The last group (reciprocal width 1/16) added to the running sum `p`. -/
def last16 (a b c p : ℝ) : ℝ := ((p + gE a (1 / 16)) + gE b (1 / 16)) - 2 * gE c (1 / 16)

/-- The index of a 512 x 1 column over the one cell of the column-reduced shape whose row is `k`. -/
theorem lift_col (h : S512x1.Reduces [0] S1) (j : S1.Idx) (k : Fin (S512x1.size 0)) :
    h.lift j k = ix2 (⟨k.val, k.isLt⟩ : Fin 512) (0 : Fin 1) := by
  funext c; apply Fin.ext
  match c with
  | ⟨0, _⟩ => rfl
  | ⟨1, _⟩ => exact Nat.lt_one_iff.mp (h.lift j k 1).isLt

/-- The tile's total added to the accumulator: the table's rows summed, then the column of row sums summed. -/
theorem pay1_vec (A B C P : S512x512.Idx → ℝ) (V : S1x1x1.Idx → ℝ) :
    k0_pay1 (F := Ideal) (cf A) (cf B) (cf C) (cf P) (Scalar.ofBits (F := Ideal) .f32 0x00000000#32) (cf V)
      = cf (fun i => V i + ∑ r : Fin 512, ∑ s : Fin 512, last16 (A (ix2 r s)) (B (ix2 r s)) (C (ix2 r s)) (P (ix2 r s))) := by
  unfold k0_pay1
  simp only [bc_zero, bc_sixteenth, bc_two, cv_subf, cv_mulf, cv_exp, cv_addf]
  funext i
  rw [shapeCast_self]
  refine (congrArg (cf V i + ·) ?_).trans (EReal.coe_add _ _).symm
  refine (shapeCast_addUnit_apply _ _ _ i).trans ?_
  refine (shapeCast_addUnit_apply _ _ _ _).trans ?_
  refine (Ideal.multiReduction_add_single _ _ _ _ _ _).trans ?_
  rw [coe_sum]
  refine Finset.sum_congr rfl fun r _ => ?_
  refine (congrArg (shapeCast S512x1 _ shapeCasts_S512_S512x1) (lift_col _ _ r)).trans ?_
  refine (Cert.LibColumn.shapeCast_a_a1_apply _ _ _ _).trans ?_
  refine (Ideal.multiReduction_add_single _ _ _ _ _ (ix1 _)).trans ?_
  rw [coe_sum]
  refine Finset.sum_congr rfl fun s _ => ?_
  rw [Cert.LibLane.lift_lane]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The tile's signed kernel total over its 512 x 512 pairs of rows. -/
def tileSum (X0 X1 X2 X3 : S512x256.Idx → ℝ) : ℝ :=
  ∑ r : Fin 512, ∑ s : Fin 512, diffR (l2R X0 X1 r s) (l2R X2 X3 r s) (l2R X0 X3 r s)

/-- What a step stores into the accumulator, over blocks of reals: the value read plus the tile's total. -/
theorem tilePay_cv (X0 X1 X2 X3 : S512x256.Idx → ℝ) (V : S1x1x1.Idx → ℝ) :
    tilePay (F := Ideal) (cf X0) (cf X1) (cf X2) (cf X3) (cf V) = cf (fun i => V i + tileSum X0 X1 X2 X3) := by
  unfold tilePay
  simp only [View.ld_unit_zero (S := S512x256) hz2]
  simp only [pay3_vec, pay4_vec, pay7_vec, pay8_vec, pay9_vec, pay10_vec, pay11_vec, pay12_vec, pay13_vec, pay14_vec, pay15_vec, pay16_vec, pay1_vec]
  rfl

end Cert.Proof.KernelIdeal

end
-- ==== Proof.MmdReal.lean ====
/-
  The arithmetic of the loss over the reals, apart from any program.

  For two families of rows `A`, `B` (256 real features each, indexed by naturals) the squared distance of two rows
  is |u|² + |v|² - 2 u·v, a Gaussian kernel of it at reciprocal width σ is exp(-d σ), and the five widths are summed.
  The tiled total (8 x 8 tiles of 512 x 512 pairs, each pair contributing k(a,a') + k(b,b') - 2 k(a,b')) and the
  quadrant total (4096 x 4096 pairs, each contributing k(a,a') + k(b,b') - k(a,b') - k(b,a')) are equal: the tiles
  regroup the pairs, and the two cross terms have equal sums because the squared distance is symmetric.
-/
import Mathlib.Analysis.SpecialFunctions.Exp
import Mathlib.Algebra.BigOperators.Fin
import Mathlib.Tactic.Ring

noncomputable section

namespace Cert.Mmd

open Finset

/-- The sum of squares of a row, the dot product of two rows, and their squared distance as both programs form it. -/
def sq (u : Fin 256 → ℝ) : ℝ := ∑ k : Fin 256, u k * u k
def dot (u v : Fin 256 → ℝ) : ℝ := ∑ k : Fin 256, u k * v k
def l2 (u v : Fin 256 → ℝ) : ℝ := (sq u + sq v) - 2 * dot u v

theorem dot_comm (u v : Fin 256 → ℝ) : dot u v = dot v u := Finset.sum_congr rfl fun k _ => mul_comm _ _
theorem l2_comm (u v : Fin 256 → ℝ) : l2 u v = l2 v u := by unfold l2; rw [dot_comm u v, add_comm (sq u)]

/-- One Gaussian kernel of a squared distance at reciprocal width `σ`. -/
def gE (d σ : ℝ) : ℝ := Real.exp ((0 - d) * σ)
/-- The five kernels summed. -/
def gk (d : ℝ) : ℝ := gE d 1 + gE d (1 / 2) + gE d (1 / 4) + gE d (1 / 8) + gE d (1 / 16)

/-- The kernels at the two widest reciprocal widths, summed in the tiled program's order. -/
def part14 (a b c : ℝ) : ℝ := ((((0 + gE a 1) + gE b 1) - 2 * gE c 1) + gE a (1 / 2)) + gE b (1 / 2)
/-- The next two groups added. -/
def part16 (a b c p e : ℝ) : ℝ :=
  (((((((p - 2 * Real.exp e) + gE a (1 / 4)) + gE b (1 / 4)) - 2 * gE c (1 / 4)) + gE a (1 / 8)) + gE b (1 / 8)) - 2 * gE c (1 / 8))
/-- The last group added. -/
def last16 (a b c p : ℝ) : ℝ := ((p + gE a (1 / 16)) + gE b (1 / 16)) - 2 * gE c (1 / 16)
/-- The signed sum of the five kernels of the three squared distances, in the tiled program's order of operations. -/
def diffR (a b c : ℝ) : ℝ :=
  ((((((((((((((0 + gE a 1) + gE b 1) - 2 * gE c 1) + gE a (1 / 2)) + gE b (1 / 2)) - 2 * gE c (1 / 2)) + gE a (1 / 4)) + gE b (1 / 4))
    - 2 * gE c (1 / 4)) + gE a (1 / 8)) + gE b (1 / 8)) - 2 * gE c (1 / 8)) + gE a (1 / 16)) + gE b (1 / 16)) - 2 * gE c (1 / 16)

theorem diffR_eq (a b c : ℝ) : diffR a b c = gk a + gk b - 2 * gk c := by unfold diffR gk; ring

/-- The five kernels as the plain program spells them: the negated distance divided by each width (a division by a
    nonzero constant being the product with its reciprocal), added to zero in order. -/
def gkRef (d : ℝ) : ℝ :=
  (((((0 + Real.exp (-d * (1 / 1))) + Real.exp (-d * (1 / 2))) + Real.exp (-d * (1 / 4))) + Real.exp (-d * (1 / 8))) + Real.exp (-d * (1 / 16)))

theorem gkRef_eq (d : ℝ) : gkRef d = gk d := by
  unfold gkRef gk gE
  rw [show -d * (1 / 1) = (0 - d) * 1 by ring, show -d * (1 / 2) = (0 - d) * (1 / 2) by ring, show -d * (1 / 4) = (0 - d) * (1 / 4) by ring,
    show -d * (1 / 8) = (0 - d) * (1 / 8) by ring, show -d * (1 / 16) = (0 - d) * (1 / 16) by ring]
  ring

variable (A B : ℕ → Fin 256 → ℝ)

/-- The tiled total. -/
def kernelTotal : ℝ :=
  ∑ i ∈ range 8, ∑ j ∈ range 8, ∑ r : Fin 512, ∑ s : Fin 512,
    diffR (l2 (A (512 * i + r.val)) (A (512 * j + s.val))) (l2 (B (512 * i + r.val)) (B (512 * j + s.val))) (l2 (A (512 * i + r.val)) (B (512 * j + s.val)))

/-- The quadrant total. -/
def refTotal : ℝ :=
  ∑ p : Fin 4096, ∑ q : Fin 4096,
    (((gkRef (l2 (A p.val) (A q.val)) + gkRef (l2 (B p.val) (B q.val))) - gkRef (l2 (A p.val) (B q.val))) - gkRef (l2 (B p.val) (A q.val)))

/-- Blocks of 512 consecutive naturals regroup a sum over the first 512 n naturals. -/
theorem sum_blocks (f : ℕ → ℝ) : ∀ n : ℕ, ∑ i ∈ range n, ∑ r : Fin 512, f (512 * i + r.val) = ∑ p ∈ range (512 * n), f p
  | 0 => by simp
  | n + 1 => by
    rw [sum_range_succ, sum_blocks f n, Nat.mul_succ, sum_range_add, Fin.sum_univ_eq_sum_range (fun r => f (512 * n + r)) 512]

theorem regroup (H : ℕ → ℕ → ℝ) :
    ∑ i ∈ range 8, ∑ j ∈ range 8, ∑ r : Fin 512, ∑ s : Fin 512, H (512 * i + r.val) (512 * j + s.val) = ∑ p ∈ range 4096, ∑ q ∈ range 4096, H p q := by
  have e1 : ∀ i : ℕ, ∀ r : Fin 512, ∑ j ∈ range 8, ∑ s : Fin 512, H (512 * i + r.val) (512 * j + s.val) = ∑ q ∈ range 4096, H (512 * i + r.val) q :=
    fun i r => sum_blocks (fun q => H (512 * i + r.val) q) 8
  rw [← sum_blocks (fun p => ∑ q ∈ range 4096, H p q) 8]
  refine sum_congr rfl fun i _ => ?_
  rw [sum_comm]
  refine sum_congr rfl fun r _ => ?_
  exact e1 i r

theorem kernelTotal_eq_refTotal : kernelTotal A B = refTotal A B := by
  unfold kernelTotal refTotal
  simp only [diffR_eq, gkRef_eq]
  refine (regroup (fun p q => gk (l2 (A p) (A q)) + gk (l2 (B p) (B q)) - 2 * gk (l2 (A p) (B q)))).trans ?_
  rw [← Fin.sum_univ_eq_sum_range (fun p => ∑ q ∈ range 4096, (gk (l2 (A p) (A q)) + gk (l2 (B p) (B q)) - 2 * gk (l2 (A p) (B q)))) 4096]
  have e3 : ∀ p : Fin 4096, ∑ q ∈ range 4096, (gk (l2 (A p.val) (A q)) + gk (l2 (B p.val) (B q)) - 2 * gk (l2 (A p.val) (B q)))
      = ∑ q : Fin 4096, (gk (l2 (A p.val) (A q.val)) + gk (l2 (B p.val) (B q.val)) - 2 * gk (l2 (A p.val) (B q.val))) :=
    fun p => (Fin.sum_univ_eq_sum_range (fun q => gk (l2 (A p.val) (A q)) + gk (l2 (B p.val) (B q)) - 2 * gk (l2 (A p.val) (B q))) 4096).symm
  simp only [e3]
  have hx : ∑ p : Fin 4096, ∑ q : Fin 4096, gk (l2 (B p.val) (A q.val)) = ∑ p : Fin 4096, ∑ q : Fin 4096, gk (l2 (A p.val) (B q.val)) := by
    rw [sum_comm]
    exact sum_congr rfl fun p _ => sum_congr rfl fun q _ => by rw [l2_comm]
  simp only [sum_sub_distrib, sum_add_distrib, ← mul_sum, hx]
  ring

end Cert.Mmd

end
-- ==== Proof.Rows.lean ====
/-
  The rows of a 4096 x 256 array of reals, indexed by naturals (zero past the last row).
-/
import Idealize.ShloMosaic.Lib.ValueIdx

noncomputable section

namespace Cert.Mmd

open Idealize.ShloMosaic Idealize.ShloMosaic.ValueIdx

/-- Row `p` of the array. -/
def rowN (S : (⟨2, ![4096, 256]⟩ : Shape).Idx → ℝ) (p : ℕ) : Fin 256 → ℝ :=
  fun k => if h : p < 4096 then S (ix2 ⟨p, h⟩ k) else 0

end Cert.Mmd

end
-- ==== Proof.KernelValue.lean ====
/-
  The idealized kernel's result over real inputs. With every input entry a real number, each block the body loads
  is an array of reals; the accumulator after point t = 8 i + j holds the sum of the tile totals of row block i up to
  column block j; the output array holds the eight row totals; and the host lines after the region add them to zero and
  divide by 2^24.
-/
import proofs.«157802_j26560077758605_1_alg».proof.Proof.LaunchIdeal
import proofs.«157802_j26560077758605_1_alg».proof.Proof.TileReal
import proofs.«157802_j26560077758605_1_alg».proof.Proof.Gen.Pre_finite_inputs
import proofs.«157802_j26560077758605_1_alg».proof.Proof.MmdReal
import proofs.«157802_j26560077758605_1_alg».proof.Proof.Rows
import Idealize.ShloMosaic.Lib.ReduceAll
import Idealize.ShloMosaic.Lib.Affine

noncomputable section

namespace Cert.Proof.KernelIdeal

open Cert.KernelIdeal Cert.KernelIdeal.Gen
open Idealize.ShloMosaic Idealize.ShloMosaic.TcCoe Idealize.ShloMosaic.ValueIdx
open Idealize.SL.Sem
open Cert.LibCoeVec Cert.MmdConsts
open Idealize.ShloMosaic.Pipeline (Dat)

local notation "cf" => cv (φ := FTy.f32)

/-! ## Finite inputs are arrays of reals -/

instance : Subsingleton Cert.Pre_finite_inputs.S_.Idx := ⟨fun a b => funext fun d => d.elim0⟩

/-- An extended real whose absolute value is below the f32 infinity is a real. -/
theorem real_of_abs_lt (x : EReal) (h : Ideal.cmp .olt (max x (-x)) (Ideal.ofBits .f32 0x7F800000#32) = 1#1) : ∃ a : ℝ, x = ((a : ℝ) : EReal) := by
  have hinf : Ideal.ofBits .f32 0x7F800000#32 = (⊤ : EReal) := by simp [Ideal.ofBits, Ideal.ieee]
  rw [hinf] at h
  have hlt : max x (-x) < (⊤ : EReal) := by
    by_contra hn
    have h' : BitVec.ofBool (decide (max x (-x) < (⊤ : EReal))) = 1#1 := h
    rw [decide_eq_false hn] at h'
    exact absurd h' (by decide)
  induction x using EReal.rec with
  | bot => exact absurd hlt (by simp)
  | coe a => exact ⟨a, rfl⟩
  | top => exact absurd hlt (by simp)

/-- The precondition read at the ideal floats: both inputs are arrays of reals. -/
theorem reals_of_pre [Cert.Pre_finite_inputs.Facts] (x y : FVec Ideal Cert.Pre_finite_inputs.S4096x256 .f32)
    (h : Cert.Pre_finite_inputs.fn (F := Ideal) x y = fun _ => 1#1) :
    (∃ S : Cert.Pre_finite_inputs.S4096x256.Idx → ℝ, x = cf S) ∧ (∃ T : Cert.Pre_finite_inputs.S4096x256.Idx → ℝ, y = cf T) := by
  have h0 := congrFun h ix0
  dsimp only [Cert.Pre_finite_inputs.fn] at h0
  obtain ⟨hx, hy⟩ := IntOp.andi_eq_one.mp h0
  have ex : ∀ i, ∃ a : ℝ, x i = ((a : ℝ) : EReal) := fun i => real_of_abs_lt _ (Host.reduce_andi_all _ _ _ _ _ hx i)
  have ey : ∀ i, ∃ a : ℝ, y i = ((a : ℝ) : EReal) := fun i => real_of_abs_lt _ (Host.reduce_andi_all _ _ _ _ _ hy i)
  exact ⟨⟨fun i => Classical.choose (ex i), funext fun i => Classical.choose_spec (ex i)⟩,
    ⟨fun i => Classical.choose (ey i), funext fun i => Classical.choose_spec (ey i)⟩⟩

variable (m : (ℓ : Loc nD τ sig) → Buf (Elt Ideal) ℓ)

/-! ## The blocks -/

/-- Row block `b` (rows 512 b … 512 b + 511) of a 4096 x 256 array of reals. -/
def blkR (S : S4096x256.Idx → ℝ) (b : ℕ) : S512x256.Idx → ℝ :=
  fun y => if h : 512 * b + (y 0).val < 4096 then S (ix2 ⟨512 * b + (y 0).val, h⟩ ⟨(y 1).val, (y 1).isLt⟩) else 0

/-- The printed index maps over the grid: at point t = 8 i + j the row windows sit at block i, the column windows at
    block j, the output window at cell i. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 3) = t.val / 8 ∧ win0_4.index t (1 : Fin 3) = 0 ∧ win0_4.index t (2 : Fin 3) = 0 :=
  (by decide +kernel : ∀ t : Fin grid0.N, _)

theorem t_lt (t : Fin cfg0.N) : t.val < 64 := by have h := t.isLt; have hN : cfg0.N = 64 := N_0; omega

theorem iblk0 (c : Dev nD) (S : S4096x256.Idx → ℝ) (hS : m ((c : Thread nD τ).loc main_arg0) = cf S) (t : Fin cfg0.N) :
    iblk m c 0 t = cf (blkR S (t.val / 8)) := by
  obtain ⟨e0, e1, -⟩ := idx_facts t
  have ht := t_lt t
  funext y
  show m ((c : Thread nD τ).loc main_arg0) (((cfg0.win 0).blk t).view.emb y) = ((blkR S (t.val / 8) y : ℝ) : EReal)
  rw [hS]
  have hy0 : (y 0).val < 512 := (y 0).isLt
  unfold blkR
  rw [dif_pos (by omega)]
  show ((S _ : ℝ) : EReal) = ((S _ : ℝ) : EReal)
  congr 2
  funext a; apply Fin.ext
  match a with
  | ⟨0, _⟩ => show win0_0.index t (0 : Fin 2) * 512 + 1 * (y 0).val = 512 * (t.val / 8) + (y 0).val; omega
  | ⟨1, _⟩ => show win0_0.index t (1 : Fin 2) * 256 + 1 * (y 1).val = (y 1).val; omega

theorem iblk1 (c : Dev nD) (S : S4096x256.Idx → ℝ) (hS : m ((c : Thread nD τ).loc main_arg0) = cf S) (t : Fin cfg0.N) :
    iblk m c 1 t = cf (blkR S (t.val % 8)) := by
  obtain ⟨-, -, e0, e1, -⟩ := idx_facts t
  have ht := t_lt t
  funext y
  show m ((c : Thread nD τ).loc main_arg0) (((cfg0.win 1).blk t).view.emb y) = ((blkR S (t.val % 8) y : ℝ) : EReal)
  rw [hS]
  have hy0 : (y 0).val < 512 := (y 0).isLt
  unfold blkR
  rw [dif_pos (by omega)]
  show ((S _ : ℝ) : EReal) = ((S _ : ℝ) : EReal)
  congr 2
  funext a; apply Fin.ext
  match a with
  | ⟨0, _⟩ => show win0_1.index t (0 : Fin 2) * 512 + 1 * (y 0).val = 512 * (t.val % 8) + (y 0).val; omega
  | ⟨1, _⟩ => show win0_1.index t (1 : Fin 2) * 256 + 1 * (y 1).val = (y 1).val; omega

theorem iblk2 (c : Dev nD) (T : S4096x256.Idx → ℝ) (hT : m ((c : Thread nD τ).loc main_arg1) = cf T) (t : Fin cfg0.N) :
    iblk m c 2 t = cf (blkR T (t.val / 8)) := by
  obtain ⟨-, -, -, -, e0, e1, -⟩ := idx_facts t
  have ht := t_lt t
  funext y
  show m ((c : Thread nD τ).loc main_arg1) (((cfg0.win 2).blk t).view.emb y) = ((blkR T (t.val / 8) y : ℝ) : EReal)
  rw [hT]
  have hy0 : (y 0).val < 512 := (y 0).isLt
  unfold blkR
  rw [dif_pos (by omega)]
  show ((T _ : ℝ) : EReal) = ((T _ : ℝ) : EReal)
  congr 2
  funext a; apply Fin.ext
  match a with
  | ⟨0, _⟩ => show win0_2.index t (0 : Fin 2) * 512 + 1 * (y 0).val = 512 * (t.val / 8) + (y 0).val; omega
  | ⟨1, _⟩ => show win0_2.index t (1 : Fin 2) * 256 + 1 * (y 1).val = (y 1).val; omega

theorem iblk3 (c : Dev nD) (T : S4096x256.Idx → ℝ) (hT : m ((c : Thread nD τ).loc main_arg1) = cf T) (t : Fin cfg0.N) :
    iblk m c 3 t = cf (blkR T (t.val % 8)) := by
  obtain ⟨-, -, -, -, -, -, e0, e1, -⟩ := idx_facts t
  have ht := t_lt t
  funext y
  show m ((c : Thread nD τ).loc main_arg1) (((cfg0.win 3).blk t).view.emb y) = ((blkR T (t.val % 8) y : ℝ) : EReal)
  rw [hT]
  have hy0 : (y 0).val < 512 := (y 0).isLt
  unfold blkR
  rw [dif_pos (by omega)]
  show ((T _ : ℝ) : EReal) = ((T _ : ℝ) : EReal)
  congr 2
  funext a; apply Fin.ext
  match a with
  | ⟨0, _⟩ => show win0_3.index t (0 : Fin 2) * 512 + 1 * (y 0).val = 512 * (t.val % 8) + (y 0).val; omega
  | ⟨1, _⟩ => show win0_3.index t (1 : Fin 2) * 256 + 1 * (y 1).val = (y 1).val; omega

/-! ## The accumulator -/

/-- The tile total at point `t`. -/
def tileAt (S T : S4096x256.Idx → ℝ) (t : ℕ) : ℝ :=
  tileSum (blkR S (t / 8)) (blkR S (t % 8)) (blkR T (t / 8)) (blkR T (t % 8))

/-- The accumulator after point `t` over the reals, by the recursion of the proof data. -/
def accRt (S T : S4096x256.Idx → ℝ) : ℕ → ℝ
  | 0 => 0 + tileAt S T 0
  | t + 1 => if (t + 1) % 8 = 0 then 0 + tileAt S T (t + 1) else accRt S T t + tileAt S T (t + 1)

theorem pay2_cv : (k0_pay2 (F := Ideal)) = cf (fun _ : S1x1x1.Idx => 0) := by
  show shapeCast S1x1x1 (broadcast S1x1x1 (Scalar.ofBits (F := Ideal) .f32 0x00000000#32)) shapeCasts_S1x1x1_S1x1x1 = _
  rw [shapeCast_self]; exact bc_zero

theorem firstv_cv (X0 X1 X2 X3 : S512x256.Idx → ℝ) :
    firstv (F := Ideal) (cf X0) (cf X1) (cf X2) (cf X3) = cf (fun _ => 0 + tileSum X0 X1 X2 X3) := by
  unfold firstv
  rw [View.canon_cons_unit_zero hz3, View.readCov_unit_zero _ hz3, pay2_cv, tilePay_cv]

theorem stepv_cv (α : ℝ) (X0 X1 X2 X3 : S512x256.Idx → ℝ) :
    stepv (F := Ideal) (cf (fun _ => α)) (cf X0) (cf X1) (cf X2) (cf X3) = cf (fun _ => α + tileSum X0 X1 X2 X3) := by
  unfold stepv
  rw [View.canon_unit_zero hz3, View.ld_unit_zero (S := S1x1x1) hz3, tilePay_cv]

theorem accA_cv (c : Dev nD) (S T : S4096x256.Idx → ℝ) (hS : m ((c : Thread nD τ).loc main_arg0) = cf S)
    (hT : m ((c : Thread nD τ).loc main_arg1) = cf T) : ∀ (t : ℕ) (ht : t < cfg0.N), accA m c t ht = cf (fun _ => accRt S T t)
  | 0, ht => by
    show firstv (iblk m c 0 ⟨0, ht⟩) (iblk m c 1 ⟨0, ht⟩) (iblk m c 2 ⟨0, ht⟩) (iblk m c 3 ⟨0, ht⟩) = _
    rw [iblk0 m c S hS, iblk1 m c S hS, iblk2 m c T hT, iblk3 m c T hT, firstv_cv]
    rfl
  | t + 1, ht => by
    show (if (t + 1) % 8 = 0 then firstv (iblk m c 0 ⟨t + 1, ht⟩) (iblk m c 1 ⟨t + 1, ht⟩) (iblk m c 2 ⟨t + 1, ht⟩) (iblk m c 3 ⟨t + 1, ht⟩)
      else stepv (accA m c t (Nat.lt_of_succ_lt ht)) (iblk m c 0 ⟨t + 1, ht⟩) (iblk m c 1 ⟨t + 1, ht⟩) (iblk m c 2 ⟨t + 1, ht⟩) (iblk m c 3 ⟨t + 1, ht⟩)) = _
    by_cases h : (t + 1) % 8 = 0
    · rw [if_pos h, iblk0 m c S hS, iblk1 m c S hS, iblk2 m c T hT, iblk3 m c T hT, firstv_cv]
      simp only [accRt, if_pos h]
      rfl
    · rw [if_neg h, accA_cv c S T hS hT t (Nat.lt_of_succ_lt ht), iblk0 m c S hS, iblk1 m c S hS, iblk2 m c T hT, iblk3 m c T hT, stepv_cv]
      simp only [accRt, if_neg h]
      rfl

/-! ## The output cell is the accumulator read back -/

theorem outFirst_eq (x0 x1 x2 x3 : Vec Ideal S512x256 .f32) : outFirst x0 x1 x2 x3 = firstv x0 x1 x2 x3 := by
  unfold outFirst firstv
  rw [View.canon_unit_zero hz3, View.readCov_eq_canon_ld _ _ _ (cover2 _ _), View.ld_unit_zero (S := S1x1x1) hz3]

theorem outStep_eq (a : Vec Ideal S1x1x1 .f32) (x0 x1 x2 x3 : Vec Ideal S512x256 .f32) : outStep a x0 x1 x2 x3 = stepv a x0 x1 x2 x3 := by
  unfold outStep stepv
  rw [View.canon_unit_zero hz3, View.readCov_unit_zero _ hz3, View.canon_unit_zero hz3]

theorem outAt_eq (c : Dev nD) (t : Fin cfg0.N) : outAt m c t = accA m c t.val t.isLt := by
  unfold outAt
  by_cases h : t.val % 8 = 0
  · rw [dif_pos h, outFirst_eq, accA_first m c t h]
  · rw [dif_neg h, outStep_eq, accA_step m c t h]

/-! ## The output array and the host lines -/

/-- The output array after the run: cell i holds the accumulator after the last point of row block i. -/
theorem final4 (c : Dev nD) (S T : S4096x256.Idx → ℝ) (hS : m ((c : Thread nD τ).loc main_arg0) = cf S)
    (hT : m ((c : Thread nD τ).loc main_arg1) = cf T) :
    (dats m 0 c).arrAt 4 cfg0.N = cf (fun i : S8x1x1.Idx => accRt S T (8 * (i 0).val + 7)) := by
  refine (dats m 0 c).arrAt_eq_of_cover 4 _ (fun t hf => ?_) (fun (i : S8x1x1.Idx) => ?_)
  · have h7 : t.val % 8 = 7 := (flush0_4 t).mp hf
    obtain ⟨-, -, -, -, -, -, -, -, e0, e1, e2⟩ := idx_facts t
    have ht := t_lt t
    show (cfg0.win 4).cut (grid0.coords t) ((dats m 0 c).after 4 t) = _
    rw [after_4, outAt_eq, accA_cv m c S T hS hT]
    funext y
    show ((accRt S T t.val : ℝ) : EReal) = ((accRt S T (8 * ((((cfg0.win 4).blk t).view.emb y) 0).val + 7) : ℝ) : EReal)
    congr 2
    show t.val = 8 * (win0_4.index t (0 : Fin 3) * 1 + 1 * (y 0).val) + 7
    have hy : (y 0).val < 1 := (y 0).isLt
    omega
  · have hi0 : (i 0).val < 8 := (i 0).isLt
    have hi1 : (i 1).val < 1 := (i 1).isLt
    have hi2 : (i 2).val < 1 := (i 2).isLt
    have hN : grid0.N = 64 := N_0
    have hlt : 8 * (i 0).val + 7 < cfg0.N := by show 8 * (i 0).val + 7 < grid0.N; omega
    refine ⟨⟨8 * (i 0).val + 7, hlt⟩, (flush0_4 _).mpr (by show (8 * (i 0).val + 7) % 8 = 7; omega), ?_⟩
    obtain ⟨-, -, -, -, -, -, -, -, e0, e1, e2⟩ := idx_facts ⟨8 * (i 0).val + 7, hlt⟩
    show i ∈ ((View.whole main_v0).slice (win0_4.rect ⟨8 * (i 0).val + 7, hlt⟩)).set
    rw [View.set_slice_whole, Rect.mem_set_unit]
    intro a
    match a with
    | ⟨0, _⟩ =>
      show win0_4.index ⟨8 * (i 0).val + 7, hlt⟩ (0 : Fin 3) * 1 ≤ (i 0).val ∧ (i 0).val < win0_4.index ⟨8 * (i 0).val + 7, hlt⟩ (0 : Fin 3) * 1 + 1
      rw [e0]; show (8 * (i 0).val + 7) / 8 * 1 ≤ (i 0).val ∧ (i 0).val < (8 * (i 0).val + 7) / 8 * 1 + 1; omega
    | ⟨1, _⟩ =>
      show win0_4.index ⟨8 * (i 0).val + 7, hlt⟩ (1 : Fin 3) * 1 ≤ (i 1).val ∧ (i 1).val < win0_4.index ⟨8 * (i 0).val + 7, hlt⟩ (1 : Fin 3) * 1 + 1
      rw [e1]; omega
    | ⟨2, _⟩ =>
      show win0_4.index ⟨8 * (i 0).val + 7, hlt⟩ (2 : Fin 3) * 1 ≤ (i 2).val ∧ (i 2).val < win0_4.index ⟨8 * (i 0).val + 7, hlt⟩ (2 : Fin 3) * 1 + 1
      rw [e2]; omega

/-- The scalar the host lines leave: the eight row totals added to zero, divided by 2^24. -/
theorem Wend_v2 (c : Dev nD) :
    Wend m c main_v2 = Host.divf (F := Ideal) (Host.reduceAdd (F := Ideal) ((dats m 0 c).arrAt 4 cfg0.N) (constant (F := Ideal) S_ .f32 0x00000000#32) reducesTo_S8x1x1_S_d0_1_2 h_S_)
      (constant (F := Ideal) S_ .f32 0x4B800000#32) := by
  unfold Wend
  show StableHlo.after hostOps1 (Wexit m c) (Proc.devRef .tc main_v2) = _
  after_results
  rw [show Wexit m c (Proc.devRef .tc main_v0) = (dats m 0 c).arrAt 4 cfg0.N from Function.update_self _ _ _]

/-! ## The scalar result over the reals -/

/-- The cells of the 8 x 1 x 1 output array, by their first coordinate. -/
def idx8 : S8x1x1.Idx ≃ Fin 8 where
  toFun i := ⟨(i 0).val, (i 0).isLt⟩
  invFun a := ix3 a (0 : Fin 1) (0 : Fin 1)
  left_inv i := by
    funext d; apply Fin.ext
    match d with
    | ⟨0, _⟩ => rfl
    | ⟨1, _⟩ => exact (Nat.lt_one_iff.mp (i 1).isLt).symm
    | ⟨2, _⟩ => exact (Nat.lt_one_iff.mp (i 2).isLt).symm
  right_inv a := rfl

theorem kernel_value (c : Dev nD) (S T : S4096x256.Idx → ℝ) (hS : m ((c : Thread nD τ).loc main_arg0) = cf S)
    (hT : m ((c : Thread nD τ).loc main_arg1) = cf T) :
    Wend m c main_v2 = cf (fun _ : S_.Idx => (0 + ∑ i : Fin 8, accRt S T (8 * i.val + 7)) * (1 / 16777216)) := by
  rw [Wend_v2, final4 m c S T hS hT]
  funext j
  show FloatOps.hostDivf (Host.reduceAdd (F := Ideal) (cf (fun i : S8x1x1.Idx => accRt S T (8 * (i 0).val + 7))) (constant (F := Ideal) S_ .f32 0x00000000#32) reducesTo_S8x1x1_S_d0_1_2 h_S_ j)
    (Ideal.ofBits .f32 0x4B800000#32) = _
  simp only [Host.reduceAdd, Ideal.hostReduceAdd_def, Ideal.hostDivf_def]
  rw [Ideal.hostReduceAdd_total reducesTo_S8x1x1_S_d0_1_2 (fun b => b.elim0)]
  show Ideal.div (Ideal.ofBits .f32 0x00000000#32 + ∑ i : S8x1x1.Idx, ((accRt S T (8 * (i 0).val + 7) : ℝ) : EReal)) (Ideal.ofBits .f32 0x4B800000#32) = _
  rw [ofBits_zero, ofBits_count, Ideal.div_coe (by norm_num), ← coe_sum, ← EReal.coe_add, ← EReal.coe_mul]
  show ((_ : ℝ) : EReal) = ((_ : ℝ) : EReal)
  rw [Fintype.sum_equiv idx8 (fun i : S8x1x1.Idx => accRt S T (8 * (i 0).val + 7)) (fun a : Fin 8 => accRt S T (8 * a.val + 7)) (fun i => rfl)]

/-! ## The accumulated totals as one sum over tiles -/

theorem accRt_run (S T : S4096x256.Idx → ℝ) (i : ℕ) : ∀ j : ℕ, j < 8 → accRt S T (8 * i + j) = ∑ j' ∈ Finset.range (j + 1), tileAt S T (8 * i + j')
  | 0, _ => by
    rw [Finset.sum_range_one]
    cases i with
    | zero => show accRt S T 0 = _; rw [accRt]; exact zero_add _
    | succ i' =>
      show accRt S T ((8 * i' + 7) + 1) = tileAt S T ((8 * i' + 7) + 1)
      rw [accRt, if_pos (by omega)]; exact zero_add _
  | j + 1, hj => by
    show accRt S T ((8 * i + j) + 1) = _
    rw [accRt, if_neg (by omega), accRt_run S T i j (by omega), Finset.sum_range_succ _ (j + 1)]
    rfl

theorem tileAt_eq (S T : S4096x256.Idx → ℝ) (i j : ℕ) (hj : j < 8) :
    tileAt S T (8 * i + j) = ∑ r : Fin 512, ∑ s : Fin 512,
      Cert.Mmd.diffR (Cert.Mmd.l2 (Cert.Mmd.rowN S (512 * i + r.val)) (Cert.Mmd.rowN S (512 * j + s.val)))
        (Cert.Mmd.l2 (Cert.Mmd.rowN T (512 * i + r.val)) (Cert.Mmd.rowN T (512 * j + s.val)))
        (Cert.Mmd.l2 (Cert.Mmd.rowN S (512 * i + r.val)) (Cert.Mmd.rowN T (512 * j + s.val))) := by
  unfold tileAt
  rw [show (8 * i + j) / 8 = i by omega, show (8 * i + j) % 8 = j by omega]
  rfl

/-- The idealized kernel's scalar: the tiled total over the rows of the two inputs, added to zero, over 2^24. -/
theorem kernel_total (S T : S4096x256.Idx → ℝ) :
    (0 + ∑ i : Fin 8, accRt S T (8 * i.val + 7)) * (1 / 16777216) = (0 + Cert.Mmd.kernelTotal (Cert.Mmd.rowN S) (Cert.Mmd.rowN T)) * (1 / 16777216) := by
  congr 2
  unfold Cert.Mmd.kernelTotal
  rw [Fin.sum_univ_eq_sum_range (fun i => accRt S T (8 * i + 7)) 8]
  refine Finset.sum_congr rfl fun i _ => ?_
  rw [accRt_run S T i 7 (by omega)]
  refine Finset.sum_congr rfl fun j hj => ?_
  exact tileAt_eq S T i j (Finset.mem_range.mp hj)

end Cert.Proof.KernelIdeal

end
-- ==== Proof.RefValue.lean ====
/-
  The reference's result over real inputs. With both inputs arrays of reals, every stage of the plain program is an
  array of reals: the concatenated rows, their sums of squares, the table of dot products, the table of squared
  distances, the five Gaussian kernels summed, the four quadrants combined with signs, the total and its mean.
-/
import proofs.«157802_j26560077758605_1_alg».proof.Proof.Gen.ReferenceIdeal.Read
import proofs.«157802_j26560077758605_1_alg».proof.Proof.LibCoeVec
import proofs.«157802_j26560077758605_1_alg».proof.Proof.Consts
import proofs.«157802_j26560077758605_1_alg».proof.Proof.MmdReal
import proofs.«157802_j26560077758605_1_alg».proof.Proof.Rows

noncomputable section

namespace Cert.ReferenceIdeal.RefValue

open Cert.ReferenceIdeal Cert.ReferenceIdeal.Gen Cert.ReferenceIdeal.Read
open Idealize.ShloMosaic Idealize.ShloMosaic.ValueIdx
open Cert.LibCoeVec Cert.MmdConsts Cert.Mmd

local notation "cf" => cv (φ := FTy.f32)

variable (S T : S4096x256.Idx → ℝ)

/-- Row `a` of the concatenation: a source row for a < 4096, else a target row. -/
def U (a : ℕ) : Fin 256 → ℝ := if a < 4096 then rowN S a else rowN T (a - 4096)

/-! ## Host operations on arrays of reals -/

theorem cvH_negf {s : Shape} (A : s.Idx → ℝ) : Host.negf (F := Ideal) (cf A) = cf (fun i => -A i) :=
  funext fun i => (EReal.coe_neg (A i)).symm
theorem cvH_exp {s : Shape} (A : s.Idx → ℝ) : Host.exp (F := Ideal) (cf A) = cf (fun i => Real.exp (A i)) := rfl
theorem cvH_divf {s : Shape} (A : s.Idx → ℝ) (c : ℝ) (hc : c ≠ 0) : Host.divf (F := Ideal) (cf A) (cf (fun _ => c)) = cf (fun i => A i * (1 / c)) :=
  funext fun i => by
    show Ideal.div ((A i : ℝ) : EReal) ((c : ℝ) : EReal) = _
    rw [Ideal.div_coe hc]; exact (EReal.coe_mul _ _).symm
theorem cvH_div1 {s : Shape} (A : s.Idx → ℝ) : Host.divf (F := Ideal) (cf A) (cf (fun _ => 1)) = cf (fun i => A i * (1 / 1)) := cvH_divf A 1 (by norm_num)
theorem cvH_div2 {s : Shape} (A : s.Idx → ℝ) : Host.divf (F := Ideal) (cf A) (cf (fun _ => 2)) = cf (fun i => A i * (1 / 2)) := cvH_divf A 2 (by norm_num)
theorem cvH_div4 {s : Shape} (A : s.Idx → ℝ) : Host.divf (F := Ideal) (cf A) (cf (fun _ => 4)) = cf (fun i => A i * (1 / 4)) := cvH_divf A 4 (by norm_num)
theorem cvH_div8 {s : Shape} (A : s.Idx → ℝ) : Host.divf (F := Ideal) (cf A) (cf (fun _ => 8)) = cf (fun i => A i * (1 / 8)) := cvH_divf A 8 (by norm_num)
theorem cvH_div16 {s : Shape} (A : s.Idx → ℝ) : Host.divf (F := Ideal) (cf A) (cf (fun _ => 16)) = cf (fun i => A i * (1 / 16)) := cvH_divf A 16 (by norm_num)

/-! ## The stages -/

/-- The concatenated rows. -/
theorem v0_cv : val_main_v0 (F := Ideal) (cf S) (cf T) = cf (fun i : S8192x256.Idx => U S T (i 0).val ⟨(i 1).val, (i 1).isLt⟩) := by
  funext i
  obtain ⟨a, k, rfl⟩ : ∃ (a : Fin 8192) (k : Fin 256), i = ix2 a k := ⟨i 0, i 1, eq_ix2 i⟩
  unfold val_main_v0
  by_cases h : a.val < 4096
  · refine (concatenate_pair_apply_left (t := S8192x256) (s₁ := S4096x256) (s₂ := S4096x256) (0 : Fin S8192x256.rank) (cf S) (cf T) concatenates_S4096x256_S4096x256_S8192x256_d0 (ix2 a k) rfl (ix2 (⟨a.val, h⟩ : Fin 4096) k) (fun b => ?_)).trans ?_
    · match b with
      | ⟨0, _⟩ => rfl
      | ⟨1, _⟩ => rfl
    · show ((S (ix2 ⟨a.val, h⟩ k) : ℝ) : EReal) = ((U S T a.val k : ℝ) : EReal)
      unfold U rowN; rw [if_pos h, dif_pos h]
  · have ha : a.val < 8192 := a.isLt
    obtain ⟨p, hp⟩ : ∃ p : Fin 4096, p.val + 4096 = a.val := ⟨⟨a.val - 4096, by omega⟩, by show a.val - 4096 + 4096 = a.val; omega⟩
    refine (concatenate_pair_apply_right (t := S8192x256) (s₁ := S4096x256) (s₂ := S4096x256) (0 : Fin S8192x256.rank) (cf S) (cf T) concatenates_S4096x256_S4096x256_S8192x256_d0 (ix2 a k) rfl rfl (ix2 p k) (fun b => ?_) hp).trans ?_
    · match b with
      | ⟨0, _⟩ => exact fun hb => (hb (Fin.ext rfl)).elim
      | ⟨1, _⟩ => exact fun _ => rfl
    · show ((T (ix2 p k) : ℝ) : EReal) = ((U S T a.val k : ℝ) : EReal)
      have hp' : a.val - 4096 = p.val := by omega
      unfold U rowN; rw [if_neg h, hp', dif_pos p.isLt]

theorem v1_cv : val_main_v1 (F := Ideal) (cf S) (cf T)
    = cf (fun i : S8192x256.Idx => U S T (i 0).val ⟨(i 1).val, (i 1).isLt⟩ * U S T (i 0).val ⟨(i 1).val, (i 1).isLt⟩) := by
  unfold val_main_v1; rw [v0_cv, cv_mulf]

/-- The rows' sums of squares (added to the zero the sum starts from). -/
theorem v2_cv : val_main_v2 (F := Ideal) (cf S) (cf T) = cf (fun i : S8192.Idx => 0 + Cert.Mmd.sq (U S T (i 0).val)) := by
  funext i
  rw [val_main_v2_apply, v1_cv]
  show Ideal.ofBits .f32 0x00000000#32 + ∑ k : Fin 256, ((_ : ℝ) : EReal) = (((0 + Cert.Mmd.sq (U S T (i 0).val)) : ℝ) : EReal)
  rw [ofBits_zero, ← coe_sum, ← EReal.coe_add]
  rfl

/-- The table of dot products. -/
theorem v4_cv : val_main_v4 (F := Ideal) (cf S) (cf T) = cf (fun i : S8192x8192.Idx => dot (U S T (i 0).val) (U S T (i 1).val)) := by
  funext i
  rw [val_main_v4_apply]
  have h3 : ∀ k : Fin 256, val_main_v3 (F := Ideal) (cf S) (cf T) (ridx_main_v4 i k) = ((U S T (i 1).val k : ℝ) : EReal) := fun k => by
    rw [val_main_v3_apply, v0_cv]; rfl
  have h0 : ∀ k : Fin 256, val_main_v0 (F := Ideal) (cf S) (cf T) (lidx_main_v4 i k) = ((U S T (i 0).val k : ℝ) : EReal) := fun k => by
    rw [v0_cv]; rfl
  simp only [h3, h0]
  show _ = ((dot (U S T (i 0).val) (U S T (i 1).val) : ℝ) : EReal)
  unfold dot
  rw [coe_sum]
  exact Finset.sum_congr rfl fun k _ => (EReal.coe_mul _ _).symm

/-- The squared distance as the plain program forms it (each sum of squares added to the zero it starts from). -/
def l2z (u v : Fin 256 → ℝ) : ℝ := ((0 + Cert.Mmd.sq u) + (0 + Cert.Mmd.sq v)) - 2 * dot u v
theorem l2z_eq (u v : Fin 256 → ℝ) : l2z u v = l2 u v := by unfold l2z l2; ring

theorem v9_cv : val_main_v9 (F := Ideal) (cf S) (cf T)
    = cf (fun i : S8192x8192.Idx => (0 + Cert.Mmd.sq (U S T (i 0).val)) + (0 + Cert.Mmd.sq (U S T (i 1).val))) := by
  funext i
  rw [val_main_v9_apply, val_main_v7_apply, val_main_v5_apply, val_main_v8_apply, val_main_v6_apply, v2_cv]
  exact (EReal.coe_add _ _).symm

theorem v10_cv : val_main_v10 (F := Ideal) = cf (fun _ : S8192x8192.Idx => 2) :=
  funext fun i => by rw [val_main_v10_apply, val_main_cst_0_apply]; exact ofBits_two
theorem v14_cv : val_main_v14 (F := Ideal) = cf (fun _ : S8192x8192.Idx => 1) :=
  funext fun i => by rw [val_main_v14_apply, val_main_cst_1_apply]; exact ofBits_one
theorem v17_cv : val_main_v17 (F := Ideal) = cf (fun _ : S8192x8192.Idx => 0) :=
  funext fun i => by rw [val_main_v17_apply, val_main_cst_2_apply]; exact ofBits_zero
theorem v20_cv : val_main_v20 (F := Ideal) = cf (fun _ : S8192x8192.Idx => 2) :=
  funext fun i => by rw [val_main_v20_apply, val_main_cst_3_apply]; exact ofBits_two
theorem v25_cv : val_main_v25 (F := Ideal) = cf (fun _ : S8192x8192.Idx => 4) :=
  funext fun i => by rw [val_main_v25_apply, val_main_cst_4_apply]; exact ofBits_four
theorem v30_cv : val_main_v30 (F := Ideal) = cf (fun _ : S8192x8192.Idx => 8) :=
  funext fun i => by rw [val_main_v30_apply, val_main_cst_5_apply]; exact ofBits_eight
theorem v35_cv : val_main_v35 (F := Ideal) = cf (fun _ : S8192x8192.Idx => 16) :=
  funext fun i => by rw [val_main_v35_apply, val_main_cst_6_apply]; exact ofBits_sixteen

/-- The table of squared distances. -/
theorem v12_cv : val_main_v12 (F := Ideal) (cf S) (cf T) = cf (fun i : S8192x8192.Idx => l2z (U S T (i 0).val) (U S T (i 1).val)) := by
  unfold val_main_v12 val_main_v11
  rw [v9_cv, v10_cv, v4_cv, cv_mulf, cv_subf]
  rfl

/-- The five kernels summed. -/
theorem v38_cv : val_main_v38 (F := Ideal) (cf S) (cf T) = cf (fun i : S8192x8192.Idx => gkRef (l2z (U S T (i 0).val) (U S T (i 1).val))) := by
  unfold val_main_v38 val_main_v37 val_main_v36 val_main_v34 val_main_v33 val_main_v32 val_main_v31 val_main_v29 val_main_v28 val_main_v27 val_main_v26
    val_main_v24 val_main_v23 val_main_v22 val_main_v21 val_main_v19 val_main_v18 val_main_v16 val_main_v15 val_main_v13
  simp only [v12_cv, v14_cv, v17_cv, v20_cv, v25_cv, v30_cv, v35_cv, cvH_negf, cvH_div1, cvH_div2, cvH_div4, cvH_div8, cvH_div16, cvH_exp, cv_addf]
  rfl

/-! ## The quadrants, the total and the mean -/

/-- An entry of the table of summed kernels. -/
def gU (a b : ℕ) : ℝ := gkRef (l2z (U S T a) (U S T b))

theorem v38_gU : val_main_v38 (F := Ideal) (cf S) (cf T) = cf (fun i : S8192x8192.Idx => gU S T (i 0).val (i 1).val) := v38_cv S T

theorem v39_cv : val_main_v39 (F := Ideal) (cf S) (cf T) = cf (fun i : S4096x4096.Idx => gU S T (i 0).val (i 1).val) :=
  funext fun i => by rw [val_main_v39_apply, v38_gU]; rfl
theorem v40_cv : val_main_v40 (F := Ideal) (cf S) (cf T) = cf (fun i : S4096x4096.Idx => gU S T (4096 + (i 0).val) (4096 + (i 1).val)) :=
  funext fun i => by rw [val_main_v40_apply, v38_gU]; rfl
theorem v41_cv : val_main_v41 (F := Ideal) (cf S) (cf T) = cf (fun i : S4096x4096.Idx => gU S T (i 0).val (4096 + (i 1).val)) :=
  funext fun i => by rw [val_main_v41_apply, v38_gU]; rfl
theorem v42_cv : val_main_v42 (F := Ideal) (cf S) (cf T) = cf (fun i : S4096x4096.Idx => gU S T (4096 + (i 0).val) (i 1).val) :=
  funext fun i => by rw [val_main_v42_apply, v38_gU]; rfl

/-- The four quadrants combined with signs, entry by entry. -/
def quad (p q : ℕ) : ℝ := ((gU S T p q + gU S T (4096 + p) (4096 + q)) - gU S T p (4096 + q)) - gU S T (4096 + p) q

theorem v45_cv : val_main_v45 (F := Ideal) (cf S) (cf T) = cf (fun i : S4096x4096.Idx => quad S T (i 0).val (i 1).val) := by
  unfold val_main_v45 val_main_v44 val_main_v43
  rw [v39_cv, v40_cv, v41_cv, v42_cv, cv_addf, cv_subf, cv_subf]
  rfl

/-- The reference's scalar over real inputs. -/
theorem ref_value : val_main_v47 (F := Ideal) (cf S) (cf T)
    = cf (fun _ : S_.Idx => (0 + ∑ j : S4096x4096.Idx, quad S T (j 0).val (j 1).val) * (1 / 16777216)) := by
  funext i
  rw [val_main_v47_apply, val_main_v46_apply, v45_cv]
  show Ideal.div (Ideal.ofBits .f32 0x00000000#32 + ∑ j : S4096x4096.Idx, ((quad S T (j 0).val (j 1).val : ℝ) : EReal)) (Ideal.ofBits .f32 0x4B800000#32) = _
  rw [ofBits_zero, ofBits_count, Ideal.div_coe (by norm_num), ← coe_sum, ← EReal.coe_add, ← EReal.coe_mul]
  rfl

theorem U_lo (p : Fin 4096) : U S T p.val = rowN S p.val := if_pos p.isLt
theorem U_hi (p : Fin 4096) : U S T (4096 + p.val) = rowN T p.val := by
  unfold U; rw [if_neg (by omega), Nat.add_sub_cancel_left]

/-- The reference's scalar: the quadrant total over the rows of the two inputs, added to zero, over 2^24. -/
theorem ref_total :
    (0 + ∑ j : S4096x4096.Idx, quad S T (j 0).val (j 1).val) * (1 / 16777216) = (0 + refTotal (rowN S) (rowN T)) * (1 / 16777216) := by
  congr 2
  unfold refTotal
  rw [sum_idx2]
  refine Finset.sum_congr rfl fun p _ => Finset.sum_congr rfl fun q _ => ?_
  show quad S T p.val q.val = _
  unfold quad gU
  rw [U_lo, U_lo, U_hi, U_hi, l2z_eq, l2z_eq, l2z_eq, l2z_eq]

end Cert.ReferenceIdeal.RefValue

end
-- ==== Proof.Bridge.lean ====
/-
  The two idealized programs end with the same scalar. Under the precondition both inputs are arrays of reals; the
  idealized kernel's scalar is then the tiled total of the signed Gaussian kernels over 2^24, the reference's the
  quadrant total over 2^24, and the two totals are the same finite sum of reals regrouped.
-/
import proofs.«157802_j26560077758605_1_alg».proof.Defs
import proofs.«157802_j26560077758605_1_alg».proof.Proof.KernelValue
import proofs.«157802_j26560077758605_1_alg».proof.Proof.RefValue
import proofs.«157802_j26560077758605_1_alg».proof.Proof.Gen.Kernel
import proofs.«157802_j26560077758605_1_alg».proof.Proof.Gen.KernelIdeal
import proofs.«157802_j26560077758605_1_alg».proof.Proof.Gen.ReferenceIdeal
import proofs.«157802_j26560077758605_1_alg».proof.Proof.Gen.Pre_finite_inputs

noncomputable section

namespace Cert.Proof.Bridge

open Idealize.ShloMosaic Idealize.ShloMosaic.TcCoe Idealize.SL.Sem
open Cert.LibCoeVec

local notation "cf" => cv (φ := FTy.f32)

/-- With inputs that agree and are arrays of reals, the reference's result term is the scalar the kernel's host lines leave. -/
theorem result_eq (m : (ℓ : Loc Cert.KernelIdeal.nD Cert.KernelIdeal.τ Cert.KernelIdeal.sig) → Buf (Elt Ideal) ℓ)
    (c : Dev Cert.KernelIdeal.nD) (S T : Cert.KernelIdeal.S4096x256.Idx → ℝ)
    (hS : m ((c : Thread Cert.KernelIdeal.nD Cert.KernelIdeal.τ).loc Cert.KernelIdeal.main_arg0) = cf S)
    (hT : m ((c : Thread Cert.KernelIdeal.nD Cert.KernelIdeal.τ).loc Cert.KernelIdeal.main_arg1) = cf T) :
    Cert.ReferenceIdeal.Read.val_main_v47 (F := Ideal) (cf S) (cf T) = Cert.Proof.KernelIdeal.Wend m c Cert.KernelIdeal.main_v2 := by
  rw [Cert.ReferenceIdeal.RefValue.ref_value, Cert.Proof.KernelIdeal.kernel_value m c S T hS hT,
    Cert.ReferenceIdeal.RefValue.ref_total, Cert.Proof.KernelIdeal.kernel_total, Cert.Mmd.kernelTotal_eq_refTotal]

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Proof.KernelIdeal.Wend m c Cert.KernelIdeal.main_v2, ?_, ?_⟩
  · exact (θ_run Cert.KernelIdeal.defs _ _).mono (fun _ h c => ⟨(h c).1, (h c).2.1, (h c).2.2⟩) (Cert.Proof.KernelIdeal.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, (hagree c).1, (hagree c).2]
    obtain ⟨⟨S, hS⟩, ⟨T, hT⟩⟩ := Cert.Proof.KernelIdeal.reals_of_pre _ _ (hpre c)
    rw [hS, hT]
    exact result_eq m c S T hS hT

end Cert.Proof.Bridge

end
-- ==== Proof.lean ====
/-
  The claim: the tiled kernel for the maximum-mean-discrepancy loss, its idealization and the plain reference all run
  to the end from any memory with finite inputs, leaving their argument arrays unchanged, and the idealized kernel and
  the idealized reference end with the same scalar as extended reals. The kernel tiles the 4096 x 4096 table of pairs
  into 8 x 8 tiles of 512 x 512, sums each tile's signed Gaussian kernels into a per-row-block accumulator and the host
  adds the eight row totals; the reference forms the 8192 x 8192 table over the concatenated inputs and takes the mean
  of its four quadrants with signs. With finite inputs every entry is a real number, so both results are the same
  finite sum regrouped, the cross quadrants agreeing by the symmetry of the squared distance.
-/
import proofs.«157802_j26560077758605_1_alg».proof.Defs
import proofs.«157802_j26560077758605_1_alg».proof.Proof.Gen.Kernel
import proofs.«157802_j26560077758605_1_alg».proof.Proof.Gen.Kernel.Skeleton
import proofs.«157802_j26560077758605_1_alg».proof.Proof.Gen.Kernel.Launch
import proofs.«157802_j26560077758605_1_alg».proof.Proof.Gen.Kernel.Points
import proofs.«157802_j26560077758605_1_alg».proof.Proof.Gen.KernelIdeal
import proofs.«157802_j26560077758605_1_alg».proof.Proof.Gen.KernelIdeal.Skeleton
import proofs.«157802_j26560077758605_1_alg».proof.Proof.Gen.KernelIdeal.Launch
import proofs.«157802_j26560077758605_1_alg».proof.Proof.Gen.KernelIdeal.Points
import proofs.«157802_j26560077758605_1_alg».proof.Proof.Gen.ReferenceIdeal
import proofs.«157802_j26560077758605_1_alg».proof.Proof.Gen.ReferenceIdeal.Run
import proofs.«157802_j26560077758605_1_alg».proof.Proof.Gen.ReferenceIdeal.Read
import proofs.«157802_j26560077758605_1_alg».proof.Proof.Gen.Pre_finite_inputs
import proofs.«157802_j26560077758605_1_alg».proof.Proof.LaunchBits
import proofs.«157802_j26560077758605_1_alg».proof.Proof.LaunchIdeal
import proofs.«157802_j26560077758605_1_alg».proof.Proof.Bridge
import Idealize.ShloMosaic.Adequacy
import Idealize.ShloMosaic.Init

noncomputable section

namespace Cert.Proof

open Idealize.ShloMosaic Idealize.SL.Sem

/-- The word-level kernel runs to the end and leaves its arguments unchanged (the launch, read at the machine words). -/
theorem frame_p : @Cert.frame_Kernel Cert.Kernel.Gen.facts Cert.Pre_finite_inputs.Gen.facts := fun m ρ _ =>
  (θ_run Cert.Kernel.defs _ _).mono (fun _ h c => ⟨(h c).2.1, (h c).2.2⟩) (Cert.Proof.Kernel.run_main (F := Bits) m ρ)

/-- The idealized kernel likewise (the same launch, read at the extended reals). -/
theorem frame_pi : @Cert.frame_KernelIdeal Cert.KernelIdeal.Gen.facts Cert.Pre_finite_inputs.Gen.facts := fun m ρ _ =>
  (θ_run Cert.KernelIdeal.defs _ _).mono (fun _ h c => ⟨(h c).2.1, (h c).2.2⟩) (Cert.Proof.KernelIdeal.run_main (F := Ideal) m ρ)

/-- The reference is host operations only: its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_p, frame_pi, frame_ri, trivial, Cert.Proof.Bridge.algebraic⟩

end Cert.Proof

end
